-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v35)) (v1 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_v24) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x128 : Shape := ⟨2, ![20000, 128]⟩
abbrev S640000x128 : Shape := ⟨2, ![640000, 128]⟩
abbrev S640000 : Shape := ⟨1, ![640000]⟩
abbrev S384x256 : Shape := ⟨2, ![384, 256]⟩
abbrev S256 : Shape := ⟨1, ![256]⟩
abbrev S256x128 : Shape := ⟨2, ![256, 128]⟩
abbrev S128 : Shape := ⟨1, ![128]⟩
abbrev S256x256 : Shape := ⟨2, ![256, 256]⟩
abbrev S_ : Shape := ⟨0, ![]⟩

class Facts : Prop where
  bcast_S_S20000x128 : S_.BroadcastsInDim S20000x128 (![] : Fin 0 → Fin S20000x128.rank)
  reducesTo_S20000x128_S_d0_1 : S20000x128.ReducesTo [0, 1] S_
  h_S_ : 0 < S_.numel
  bcast_S_S640000x128 : S_.BroadcastsInDim S640000x128 (![] : Fin 0 → Fin S640000x128.rank)
  reducesTo_S640000x128_S_d0_1 : S640000x128.ReducesTo [0, 1] S_
  bcast_S_S384x256 : S_.BroadcastsInDim S384x256 (![] : Fin 0 → Fin S384x256.rank)
  reducesTo_S384x256_S_d0_1 : S384x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S256x256 : S_.BroadcastsInDim S256x256 (![] : Fin 0 → Fin S256x256.rank)
  reducesTo_S256x256_S_d0_1 : S256x256.ReducesTo [0, 1] S_

variable [Facts]

def fn_part2 {F : FTy → Type} [FloatOps F] (main_arg9 : FVec F S256 .f32) (main_arg10 : FVec F S256x128 .f32) (main_arg11 : FVec F S128 .f32) (main_v33 : IVec S_ 1) : IVec S_ 1 :=
  let main_v34 : FVec F S256 .f32 := Host.absf main_arg9
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x128 .f32 := Host.absf main_arg10
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg6 : FVec F S256x128 .f32) (main_arg7 : FVec F S128 .f32) (main_arg8 : FVec F S256x256 .f32) (main_arg9 : FVec F S256 .f32) (main_arg10 : FVec F S256x128 .f32) (main_arg11 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x128 .f32 := Host.absf main_arg6
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x256 .f32 := Host.absf main_arg8
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg9 main_arg10 main_arg11 main_v33

def fn {F : FTy → Type} [FloatOps F] (main_arg0 : FVec F S20000x128 .f32) (main_arg1 : FVec F S640000x128 .f32) (main_arg2 : IVec S640000 32) (main_arg3 : IVec S640000 32) (main_arg4 : FVec F S384x256 .f32) (main_arg5 : FVec F S256 .f32) (main_arg6 : FVec F S256x128 .f32) (main_arg7 : FVec F S128 .f32) (main_arg8 : FVec F S256x256 .f32) (main_arg9 : FVec F S256 .f32) (main_arg10 : FVec F S256x128 .f32) (main_arg11 : FVec F S128 .f32) : IVec S_ 1 :=
  let main_v0 : FVec F S20000x128 .f32 := Host.absf main_arg0
  let main_cst : FVec F S_ .f32 := constant S_ .f32 0x7F800000#32
  let main_v1 : FVec F S20000x128 .f32 := broadcastInDim S20000x128 ![] bcast_S_S20000x128 main_cst
  let main_v2 : IVec S20000x128 1 := cmpf .olt main_v0 main_v1
  let main_c : IVec S_ 1 := constantI S_ 1 1#1
  let main_v3 : IVec S_ 1 := (fun x v => Host.reduce IntOp.andi x v reducesTo_S20000x128_S_d0_1 h_S_) main_v2 main_c
  let main_v4 : FVec F S640000x128 .f32 := Host.absf main_arg1
  let main_cst_0 : FVec F S_ .f32 := constant S_ .f32 0x7F800000#32
  let main_v5 : FVec F S640000x128 .f32 := broadcastInDim S640000x128 ![] bcast_S_S640000x128 main_cst_0
  let main_v6 : IVec S640000x128 1 := cmpf .olt main_v4 main_v5
  let main_c_1 : IVec S_ 1 := constantI S_ 1 1#1
  let main_v7 : IVec S_ 1 := (fun x v => Host.reduce IntOp.andi x v reducesTo_S640000x128_S_d0_1 h_S_) main_v6 main_c_1
  let main_v8 : IVec S_ 1 := andi main_v3 main_v7
  let main_v9 : FVec F S384x256 .f32 := Host.absf main_arg4
  let main_cst_2 : FVec F S_ .f32 := constant S_ .f32 0x7F800000#32
  let main_v10 : FVec F S384x256 .f32 := broadcastInDim S384x256 ![] bcast_S_S384x256 main_cst_2
  let main_v11 : IVec S384x256 1 := cmpf .olt main_v9 main_v10
  let main_c_3 : IVec S_ 1 := constantI S_ 1 1#1
  let main_v12 : IVec S_ 1 := (fun x v => Host.reduce IntOp.andi x v reducesTo_S384x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_arg8 main_arg9 main_arg10 main_arg11 main_v13 main_v16
-- ==== Kernel.lean ====
abbrev S20000x128 : Shape := ⟨2, ![20000, 128]⟩
abbrev S640000x128 : Shape := ⟨2, ![640000, 128]⟩
abbrev S640000 : Shape := ⟨1, ![640000]⟩
abbrev S384x256 : Shape := ⟨2, ![384, 256]⟩
abbrev S256 : Shape := ⟨1, ![256]⟩
abbrev S256x128 : Shape := ⟨2, ![256, 128]⟩
abbrev S128 : Shape := ⟨1, ![128]⟩
abbrev S256x256 : Shape := ⟨2, ![256, 256]⟩
abbrev S_ : Shape := ⟨0, ![]⟩
abbrev S640000x1 : Shape := ⟨2, ![640000, 1]⟩
abbrev S128x256 : Shape := ⟨2, ![128, 256]⟩
abbrev S1x256 : Shape := ⟨2, ![1, 256]⟩
abbrev S1x128 : Shape := ⟨2, ![1, 128]⟩
abbrev S6400x128 : Shape := ⟨2, ![6400, 128]⟩
abbrev S6400x256 : Shape := ⟨2, ![6400, 256]⟩
abbrev S5000x128 : Shape := ⟨2, ![5000, 128]⟩
abbrev S5000x256 : Shape := ⟨2, ![5000, 256]⟩

abbrev nBuf : Space → Nat
  | .hbm => 53
  | .vmem => 25
  | .smem => 0
  | _ => 0

abbrev bufTy : (tb : Table) → Fin (tcTables nBuf tb) → BufTy
  | .hbm, ⟨0, _⟩ => ⟨S20000x128, .f32⟩
  | .hbm, ⟨1, _⟩ => ⟨S640000x128, .f32⟩
  | .hbm, ⟨2, _⟩ => ⟨S640000, .i32⟩
  | .hbm, ⟨3, _⟩ => ⟨S640000, .i32⟩
  | .hbm, ⟨4, _⟩ => ⟨S384x256, .f32⟩
  | .hbm, ⟨5, _⟩ => ⟨S256, .f32⟩
  | .hbm, ⟨6, _⟩ => ⟨S256x128, .f32⟩
  | .hbm, ⟨7, _⟩ => ⟨S128, .f32⟩
  | .hbm, ⟨8, _⟩ => ⟨S256x256, .f32⟩
  | .hbm, ⟨9, _⟩ => ⟨S256, .f32⟩
  | .hbm, ⟨10, _⟩ => ⟨S256x128, .f32⟩
  | .hbm, ⟨11, _⟩ => ⟨S128, .f32⟩
  | .hbm, ⟨12, _⟩ => ⟨S20000x128, .bf16⟩
  | .hbm, ⟨13, _⟩ => ⟨S_, .i32⟩
  | .hbm, ⟨14, _⟩ => ⟨S640000, .i32⟩
  | .hbm, ⟨15, _⟩ => ⟨S640000, .i1⟩
  | .hbm, ⟨16, _⟩ => ⟨S_, .i32⟩
  | .hbm, ⟨17, _⟩ => ⟨S640000, .i32⟩
  | .hbm, ⟨18, _⟩ => ⟨S640000, .i32⟩
  | .hbm, ⟨19, _⟩ => ⟨S640000, .i32⟩
  | .hbm, ⟨20, _⟩ => ⟨S640000x1, .i32⟩
  | .hbm, ⟨21, _⟩ => ⟨S640000x128, .bf16⟩
  | .hbm, ⟨22, _⟩ => ⟨S_, .i32⟩
  | .hbm, ⟨23, _⟩ => ⟨S640000, .i32⟩
  | .hbm, ⟨24, _⟩ => ⟨S640000, .i1⟩
  | .hbm, ⟨25, _⟩ => ⟨S_, .i32⟩
  | .hbm, ⟨26, _⟩ => ⟨S640000, .i32⟩
  | .hbm, ⟨27, _⟩ => ⟨S640000, .i32⟩
  | .hbm, ⟨28, _⟩ => ⟨S640000, .i32⟩
  | .hbm, ⟨29, _⟩ => ⟨S640000x1, .i32⟩
  | .hbm, ⟨30, _⟩ => ⟨S640000x128, .bf16⟩
  | .hbm, ⟨31, _⟩ => ⟨S128x256, .f32⟩
  | .hbm, ⟨32, _⟩ => ⟨S128x256, .bf16⟩
  | .hbm, ⟨33, _⟩ => ⟨S128x256, .f32⟩
  | .hbm, ⟨34, _⟩ => ⟨S128x256, .bf16⟩
  | .hbm, ⟨35, _⟩ => ⟨S128x256, .f32⟩
  | .hbm, ⟨36, _⟩ => ⟨S128x256, .bf16⟩
  | .hbm, ⟨37, _⟩ => ⟨S256x128, .bf16⟩
  | .hbm, ⟨38, _⟩ => ⟨S1x256, .f32⟩
  | .hbm, ⟨39, _⟩ => ⟨S1x128, .f32⟩
  | .hbm, ⟨40, _⟩ => ⟨S640000x128, .f32⟩
  | .hbm, ⟨41, _⟩ => ⟨S_, .f32⟩
  | .hbm, ⟨42, _⟩ => ⟨S20000x128, .f32⟩
  | .hbm, ⟨43, _⟩ => ⟨S640000x1, .i32⟩
  | .hbm, ⟨44, _⟩ => ⟨S20000x128, .f32⟩
  | .hbm, ⟨45, _⟩ => ⟨S128x256, .f32⟩
  | .hbm, ⟨46, _⟩ => ⟨S128x256, .bf16⟩
  | .hbm, ⟨47, _⟩ => ⟨S128x256, .f32⟩
  | .hbm, ⟨48, _⟩ => ⟨S128x256, .bf16⟩
  | .hbm, ⟨49, _⟩ => ⟨S256x128, .bf16⟩
  | .hbm, ⟨50, _⟩ => ⟨S1x256, .f32⟩
  | .hbm, ⟨51, _⟩ => ⟨S1x128, .f32⟩
  | .hbm, ⟨52, _⟩ => ⟨S20000x128, .f32⟩
  | .local _ .vmem, ⟨0, _⟩ => ⟨S6400x128, .f32⟩
  | .local _ .vmem, ⟨1, _⟩ => ⟨S6400x128, .f32⟩
  | .local _ .vmem, ⟨2, _⟩ => ⟨S6400x128, .bf16⟩
  | .local _ .vmem, ⟨3, _⟩ => ⟨S6400x128, .bf16⟩
  | .local _ .vmem, ⟨4, _⟩ => ⟨S6400x128, .bf16⟩
  | .local _ .vmem, ⟨5, _⟩ => ⟨S6400x128, .bf16⟩
  | .local _ .vmem, ⟨6, _⟩ => ⟨S128x256, .bf16⟩
  | .local _ .vmem, ⟨7, _⟩ => ⟨S128x256, .bf16⟩
  | .local _ .vmem, ⟨8, _⟩ => ⟨S128x256, .bf16⟩
  | .local _ .vmem, ⟨9, _⟩ => ⟨S1x256, .f32⟩
  | .local _ .vmem, ⟨10, _⟩ => ⟨S256x128, .bf16⟩
  | .local _ .vmem, ⟨11, _⟩ => ⟨S1x128, .f32⟩
  | .local _ .vmem, ⟨12, _⟩ => ⟨S6400x128, .f32⟩
  | .local _ .vmem, ⟨13, _⟩ => ⟨S6400x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S128x256, .bf16⟩
  | .local _ .vmem, ⟨19, _⟩ => ⟨S128x256, .bf16⟩
  | .local _ .vmem, ⟨20, _⟩ => ⟨S1x256, .f32⟩
  | .local _ .vmem, ⟨21, _⟩ => ⟨S256x128, .bf16⟩
  | .local _ .vmem, ⟨22, _⟩ => ⟨S1x128, .f32⟩
  | .local _ .vmem, ⟨23, _⟩ => ⟨S5000x128, .f32⟩
  | .local _ .vmem, ⟨24, _⟩ => ⟨S5000x128, .f32⟩
  | _, _ => ⟨S20000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_v1 : Ref sig .tc := ⟨.hbm, 14, rfl⟩
abbrev main_v2 : Ref sig .tc := ⟨.hbm, 15, rfl⟩
abbrev main_c_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_c_1 : Ref sig .tc := ⟨.hbm, 22, rfl⟩
abbrev main_v8 : Ref sig .tc := ⟨.hbm, 23, rfl⟩
abbrev main_v9 : Ref sig .tc := ⟨.hbm, 24, rfl⟩
abbrev main_c_2 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg7_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem7_1 : DmaSem sig := 24

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S6400x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S6400x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  bitsLt_bf16_f32 : FTy.bits .bf16 < FTy.bits .f32
  bcast_S_S640000 : S_.BroadcastsInDim S640000 (![] : Fin 0 → Fin S640000.rank)
  bcast_S640000_S640000x1_0 : S640000.BroadcastsInDim S640000x1 (![0] : Fin 1 → Fin S640000x1.rank)
  slices_S384x256_S128x256_0_0 : S384x256.Slices ![0, 0] S128x256
  slices_S384x256_S128x256_128_0 : S384x256.Slices ![128, 0] S128x256
  slices_S384x256_S128x256_256_0 : S384x256.Slices ![256, 0] S128x256
  shapeCasts_S256_S1x256 : S256.ShapeCasts S1x256
  shapeCasts_S128_S1x128 : S128.ShapeCasts S1x128
  inb_S6400x128_S6400x128_0_0 : ∀ a, (![0, 0] : Fin 2 → Nat) a + S6400x128.size a ≤ S6400x128.size a
  h_S6400x128 : 0 < S6400x128.numel
  inb_S128x256_S128x256_0_0 : ∀ a, (![0, 0] : Fin 2 → Nat) a + S128x256.size a ≤ S128x256.size a
  h_S128x256 : 0 < S128x256.numel
  shapeCasts_S128x256_S128x256 : S128x256.ShapeCasts S128x256
  shapeCasts_S6400x128_S6400x128 : S6400x128.ShapeCasts S6400x128
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S6400x256 : S1x256.Broadcasts S6400x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S6400x128 : S1x128.Broadcasts S6400x128
  bcast_S_S20000x128 : S_.BroadcastsInDim S20000x128 (![] : Fin 0 → Fin S20000x128.rank)
  slices_S256x256_S128x256_0_0 : S256x256.Slices ![0, 0] S128x256
  slices_S256x256_S128x256_128_0 : S256x256.Slices ![128, 0] S128x256
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S1x256_S5000x256 : S1x256.Broadcasts S5000x256
  broadcasts_S1x128_S5000x128 : S1x128.Broadcasts S5000x128
  gather_S20000x128_S640000x1_S640000x128_1_0_n_n_0_1_1128_wf : GatherDims.WF S20000x128 S640000x1 S640000x128 [1] [0] [] [0] [] 1 ![1, 128]
  dot_S6400x128_S128x256_S6400x256_1_0_0_1_n_n_wf : DotDims.WF S6400x128 S128x256 S6400x256 [1] [0] [0] [1] [] []
  dot_S6400x256_S256x128_S6400x128_1_0_0_1_n_n_wf : DotDims.WF S6400x256 S256x128 S6400x128 [1] [0] [0] [1] [] []
  scatter_S20000x128_S640000x1_S640000x128_1_0_0_1_wf : ScatterDims.WF S20000x128 S640000x1 S640000x128 [1] [0] [0] 1
  dot_S5000x128_S128x256_S5000x256_1_0_0_1_n_n_wf : DotDims.WF S5000x128 S128x256 S5000x256 [1] [0] [0] [1] [] []
  dot_S5000x256_S256x128_S5000x128_1_0_0_1_n_n_wf : DotDims.WF S5000x256 S256x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x128.size a ≤ S640000x128.size a
  hwx0_0 : ∀ i : grid0.Coords, EltTy.bits .f32 = 32 ∨ (Rect.block (s := S640000x128) S6400x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x128.size a ≤ S640000x128.size a
  hwx0_1 : ∀ i : grid0.Coords, EltTy.bits .bf16 = 32 ∨ (Rect.block (s := S640000x128) S6400x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S6400x128.size a ≤ S640000x128.size a
  hwx0_2 : ∀ i : grid0.Coords, EltTy.bits .bf16 = 32 ∨ (Rect.block (s := S640000x128) S6400x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .bf16 = 32 ∨ (Rect.block (s := S128x256) S128x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .bf16 = 32 ∨ (Rect.block (s := S128x256) S128x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x256.size a ≤ S128x256.size a
  hwx0_5 : ∀ i : grid0.Coords, EltTy.bits .bf16 = 32 ∨ (Rect.block (s := S128x256) S128x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x128.size a ≤ S256x128.size a
  hwx0_7 : ∀ i : grid0.Coords, EltTy.bits .bf16 = 32 ∨ (Rect.block (s := S256x128) S256x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S6400x128.size a ≤ S640000x128.size a
  hwx0_9 : ∀ i : grid0.Coords, EltTy.bits .f32 = 32 ∨ (Rect.block (s := S640000x128) S6400x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S20000x128.size a
  hwx1_0 : ∀ i : grid1.Coords, EltTy.bits .f32 = 32 ∨ (Rect.block (s := S20000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S20000x128.size a
  hwx1_1 : ∀ i : grid1.Coords, EltTy.bits .f32 = 32 ∨ (Rect.block (s := S20000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x256.size a ≤ S128x256.size a
  hwx1_2 : ∀ i : grid1.Coords, EltTy.bits .bf16 = 32 ∨ (Rect.block (s := S128x256) S128x256.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x256.size a ≤ S128x256.size a
  hwx1_3 : ∀ i : grid1.Coords, EltTy.bits .bf16 = 32 ∨ (Rect.block (s := S128x256) S128x256.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x128.size a ≤ S256x128.size a
  hwx1_5 : ∀ i : grid1.Coords, EltTy.bits .bf16 = 32 ∨ (Rect.block (s := S256x128) S256x128.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S20000x128.size a
  hwx1_7 : ∀ i : grid1.Coords, EltTy.bits .f32 = 32 ∨ (Rect.block (s := S20000x128) S5000x128.size (cc1_transform_7 i) (hinb1_7 i)).WholeWords (EltTy.packing .f32)

variable [Facts₀]

def gather_S20000x128_S640000x1_S640000x128_1_0_n_n_0_1_1128 : GatherDims S20000x128 S640000x1 S640000x128 where
  offsetDims := [1]
  collapsedSliceDims := [0]
  operandBatchingDims := []
  startIndicesBatchingDims := []
  startIndexMap := [0]
  indexVectorDim := 1
  sliceSizes := ![1, 128]
  wf := gather_S20000x128_S640000x1_S640000x128_1_0_n_n_0_1_1128_wf
def dot_S6400x128_S128x256_S6400x256_1_0_0_1_n_n : DotDims S6400x128 S128x256 S6400x256 where
  lhsContracting := [1]
  rhsContracting := [0]
  lhsNonContracting := [0]
  rhsNonContracting := [1]
  lhsBatch := []
  rhsBatch := []
  wf := dot_S6400x128_S128x256_S6400x256_1_0_0_1_n_n_wf
def dot_S6400x256_S256x128_S6400x128_1_0_0_1_n_n : DotDims S6400x256 S256x128 S6400x128 where
  lhsContracting := [1]
  rhsContracting := [0]
  lhsNonContracting := [0]
  rhsNonContracting := [1]
  lhsBatch := []
  rhsBatch := []
  wf := dot_S6400x256_S256x128_S6400x128_1_0_0_1_n_n_wf
def scatter_S20000x128_S640000x1_S640000x128_1_0_0_1 : ScatterDims S20000x128 S640000x1 S640000x128 where
  updateWindowDims := [1]
  insertedWindowDims := [0]
  scatterDimsToOperandDims := [0]
  indexVectorDim := 1
  wf := scatter_S20000x128_S640000x1_S640000x128_1_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf

abbrev win0_0 : Pipeline.Window sig grid0 :=
  Pipeline.Window.ofSpec (Memref.whole main_arg1) S6400x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S6400x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S6400x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S128x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v21) S256x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v23) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v24) S6400x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v27) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v29) S128x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v31) S128x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v33) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v32) S256x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v34) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v35) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S20000x128 : Shape := ⟨2, ![20000, 128]⟩
abbrev S640000x128 : Shape := ⟨2, ![640000, 128]⟩
abbrev S640000 : Shape := ⟨1, ![640000]⟩
abbrev S384x256 : Shape := ⟨2, ![384, 256]⟩
abbrev S256 : Shape := ⟨1, ![256]⟩
abbrev S256x128 : Shape := ⟨2, ![256, 128]⟩
abbrev S128 : Shape := ⟨1, ![128]⟩
abbrev S256x256 : Shape := ⟨2, ![256, 256]⟩
abbrev S_ : Shape := ⟨0, ![]⟩
abbrev S640000x1 : Shape := ⟨2, ![640000, 1]⟩
abbrev S640000x384 : Shape := ⟨2, ![640000, 384]⟩
abbrev S640000x256 : Shape := ⟨2, ![640000, 256]⟩
abbrev S1x256 : Shape := ⟨2, ![1, 256]⟩
abbrev S1x128 : Shape := ⟨2, ![1, 128]⟩
abbrev S20000x256 : Shape := ⟨2, ![20000, 256]⟩

abbrev nBuf : Space → Nat
  | .hbm => 58
  | .vmem => 0
  | .smem => 0
  | _ => 0

abbrev bufTy : (tb : Table) → Fin (tcTables nBuf tb) → BufTy
  | .hbm, ⟨0, _⟩ => ⟨S20000x128, .f32⟩
  | .hbm, ⟨1, _⟩ => ⟨S640000x128, .f32⟩
  | .hbm, ⟨2, _⟩ => ⟨S640000, .i32⟩
  | .hbm, ⟨3, _⟩ => ⟨S640000, .i32⟩
  | .hbm, ⟨4, _⟩ => ⟨S384x256, .f32⟩
  | .hbm, ⟨5, _⟩ => ⟨S256, .f32⟩
  | .hbm, ⟨6, _⟩ => ⟨S256x128, .f32⟩
  | .hbm, ⟨7, _⟩ => ⟨S128, .f32⟩
  | .hbm, ⟨8, _⟩ => ⟨S256x256, .f32⟩
  | .hbm, ⟨9, _⟩ => ⟨S256, .f32⟩
  | .hbm, ⟨10, _⟩ => ⟨S256x128, .f32⟩
  | .hbm, ⟨11, _⟩ => ⟨S128, .f32⟩
  | .hbm, ⟨12, _⟩ => ⟨S_, .i32⟩
  | .hbm, ⟨13, _⟩ => ⟨S640000, .i32⟩
  | .hbm, ⟨14, _⟩ => ⟨S640000, .i1⟩
  | .hbm, ⟨15, _⟩ => ⟨S_, .i32⟩
  | .hbm, ⟨16, _⟩ => ⟨S640000, .i32⟩
  | .hbm, ⟨17, _⟩ => ⟨S640000, .i32⟩
  | .hbm, ⟨18, _⟩ => ⟨S640000, .i32⟩
  | .hbm, ⟨19, _⟩ => ⟨S640000x1, .i32⟩
  | .hbm, ⟨20, _⟩ => ⟨S640000x128, .f32⟩
  | .hbm, ⟨21, _⟩ => ⟨S_, .i32⟩
  | .hbm, ⟨22, _⟩ => ⟨S640000, .i32⟩
  | .hbm, ⟨23, _⟩ => ⟨S640000, .i1⟩
  | .hbm, ⟨24, _⟩ => ⟨S_, .i32⟩
  | .hbm, ⟨25, _⟩ => ⟨S640000, .i32⟩
  | .hbm, ⟨26, _⟩ => ⟨S640000, .i32⟩
  | .hbm, ⟨27, _⟩ => ⟨S640000, .i32⟩
  | .hbm, ⟨28, _⟩ => ⟨S640000x1, .i32⟩
  | .hbm, ⟨29, _⟩ => ⟨S640000x128, .f32⟩
  | .hbm, ⟨30, _⟩ => ⟨S640000x384, .f32⟩
  | .hbm, ⟨31, _⟩ => ⟨S640000x256, .f32⟩
  | .hbm, ⟨32, _⟩ => ⟨S1x256, .f32⟩
  | .hbm, ⟨33, _⟩ => ⟨S640000x256, .f32⟩
  | .hbm, ⟨34, _⟩ => ⟨S640000x256, .f32⟩
  | .hbm, ⟨35, _⟩ => ⟨S_, .f32⟩
  | .hbm, ⟨36, _⟩ => ⟨S640000x256, .f32⟩
  | .hbm, ⟨37, _⟩ => ⟨S640000x256, .f32⟩
  | .hbm, ⟨38, _⟩ => ⟨S640000x128, .f32⟩
  | .hbm, ⟨39, _⟩ => ⟨S1x128, .f32⟩
  | .hbm, ⟨40, _⟩ => ⟨S640000x128, .f32⟩
  | .hbm, ⟨41, _⟩ => ⟨S640000x128, .f32⟩
  | .hbm, ⟨42, _⟩ => ⟨S_, .f32⟩
  | .hbm, ⟨43, _⟩ => ⟨S20000x128, .f32⟩
  | .hbm, ⟨44, _⟩ => ⟨S640000x1, .i32⟩
  | .hbm, ⟨45, _⟩ => ⟨S20000x128, .f32⟩
  | .hbm, ⟨46, _⟩ => ⟨S20000x256, .f32⟩
  | .hbm, ⟨47, _⟩ => ⟨S20000x256, .f32⟩
  | .hbm, ⟨48, _⟩ => ⟨S1x256, .f32⟩
  | .hbm, ⟨49, _⟩ => ⟨S20000x256, .f32⟩
  | .hbm, ⟨50, _⟩ => ⟨S20000x256, .f32⟩
  | .hbm, ⟨51, _⟩ => ⟨S_, .f32⟩
  | .hbm, ⟨52, _⟩ => ⟨S20000x256, .f32⟩
  | .hbm, ⟨53, _⟩ => ⟨S20000x256, .f32⟩
  | .hbm, ⟨54, _⟩ => ⟨S20000x128, .f32⟩
  | .hbm, ⟨55, _⟩ => ⟨S1x128, .f32⟩
  | .hbm, ⟨56, _⟩ => ⟨S20000x128, .f32⟩
  | .hbm, ⟨57, _⟩ => ⟨S20000x128, .f32⟩
  | _, _ => ⟨S20000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_1 : Ref sig .tc := ⟨.hbm, 21, rfl⟩
abbrev main_v7 : Ref sig .tc := ⟨.hbm, 22, rfl⟩
abbrev main_v8 : Ref sig .tc := ⟨.hbm, 23, rfl⟩
abbrev main_c_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_call0_cst : Ref sig .tc := ⟨.hbm, 35, rfl⟩
abbrev main_call0_v0 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_call1_cst : Ref sig .tc := ⟨.hbm, 51, rfl⟩
abbrev main_call1_v0 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  concatenates_S640000x128_S640000x128_S640000x128_S640000x384_d1 : Shape.Concatenates [S640000x128, S640000x128, S640000x128] S640000x384 1
  bcast_S256_S1x256_1 : S256.BroadcastsInDim S1x256 (![1] : Fin 1 → Fin S1x256.rank)
  bcast_S1x256_S640000x256_0_1 : S1x256.BroadcastsInDim S640000x256 (![0, 1] : Fin 2 → Fin S640000x256.rank)
  bcast_S_S640000x256 : S_.BroadcastsInDim S640000x256 (![] : Fin 0 → Fin S640000x256.rank)
  bcast_S128_S1x128_1 : S128.BroadcastsInDim S1x128 (![1] : Fin 1 → Fin S1x128.rank)
  bcast_S1x128_S640000x128_0_1 : S1x128.BroadcastsInDim S640000x128 (![0, 1] : Fin 2 → Fin S640000x128.rank)
  bcast_S_S20000x128 : S_.BroadcastsInDim S20000x128 (![] : Fin 0 → Fin S20000x128.rank)
  concatenates_S20000x128_S20000x128_S20000x256_d1 : Shape.Concatenates [S20000x128, S20000x128] S20000x256 1
  bcast_S1x256_S20000x256_0_1 : S1x256.BroadcastsInDim S20000x256 (![0, 1] : Fin 2 → Fin S20000x256.rank)
  bcast_S_S20000x256 : S_.BroadcastsInDim S20000x256 (![] : Fin 0 → Fin S20000x256.rank)
  bcast_S1x128_S20000x128_0_1 : S1x128.BroadcastsInDim S20000x128 (![0, 1] : Fin 2 → Fin S20000x128.rank)
  gather_S20000x128_S640000x1_S640000x128_1_0_n_n_0_1_1128_wf : GatherDims.WF S20000x128 S640000x1 S640000x128 [1] [0] [] [0] [] 1 ![1, 128]
  dot_S640000x384_S384x256_S640000x256_1_0_0_1_n_n_wf : DotDims.WF S640000x384 S384x256 S640000x256 [1] [0] [0] [1] [] []
  dot_S640000x256_S256x128_S640000x128_1_0_0_1_n_n_wf : DotDims.WF S640000x256 S256x128 S640000x128 [1] [0] [0] [1] [] []
  scatter_S20000x128_S640000x1_S640000x128_1_0_0_1_wf : ScatterDims.WF S20000x128 S640000x1 S640000x128 [1] [0] [0] 1
  dot_S20000x256_S256x256_S20000x256_1_0_0_1_n_n_wf : DotDims.WF S20000x256 S256x256 S20000x256 [1] [0] [0] [1] [] []
  dot_S20000x256_S256x128_S20000x128_1_0_0_1_n_n_wf : DotDims.WF S20000x256 S256x128 S20000x128 [1] [0] [0] [1] [] []

variable [Facts₀]

def gather_S20000x128_S640000x1_S640000x128_1_0_n_n_0_1_1128 : GatherDims S20000x128 S640000x1 S640000x128 where
  offsetDims := [1]
  collapsedSliceDims := [0]
  operandBatchingDims := []
  startIndicesBatchingDims := []
  startIndexMap := [0]
  indexVectorDim := 1
  sliceSizes := ![1, 128]
  wf := gather_S20000x128_S640000x1_S640000x128_1_0_n_n_0_1_1128_wf
def dot_S640000x384_S384x256_S640000x256_1_0_0_1_n_n : DotDims S640000x384 S384x256 S640000x256 where
  lhsContracting := [1]
  rhsContracting := [0]
  lhsNonContracting := [0]
  rhsNonContracting := [1]
  lhsBatch := []
  rhsBatch := []
  wf := dot_S640000x384_S384x256_S640000x256_1_0_0_1_n_n_wf
def dot_S640000x256_S256x128_S640000x128_1_0_0_1_n_n : DotDims S640000x256 S256x128 S640000x128 where
  lhsContracting := [1]
  rhsContracting := [0]
  lhsNonContracting := [0]
  rhsNonContracting := [1]
  lhsBatch := []
  rhsBatch := []
  wf := dot_S640000x256_S256x128_S640000x128_1_0_0_1_n_n_wf
def scatter_S20000x128_S640000x1_S640000x128_1_0_0_1 : ScatterDims S20000x128 S640000x1 S640000x128 where
  updateWindowDims := [1]
  insertedWindowDims := [0]
  scatterDimsToOperandDims := [0]
  indexVectorDim := 1
  wf := scatter_S20000x128_S640000x1_S640000x128_1_0_0_1_wf
def dot_S20000x256_S256x256_S20000x256_1_0_0_1_n_n : DotDims S20000x256 S256x256 S20000x256 where
  lhsContracting := [1]
  rhsContracting := [0]
  lhsNonContracting := [0]
  rhsNonContracting := [1]
  lhsBatch := []
  rhsBatch := []
  wf := dot_S20000x256_S256x256_S20000x256_1_0_0_1_n_n_wf
def dot_S20000x256_S256x128_S20000x128_1_0_0_1_n_n : DotDims S20000x256 S256x128 S20000x128 where
  lhsContracting := [1]
  rhsContracting := [0]
  lhsNonContracting := [0]
  rhsNonContracting := [1]
  lhsBatch := []
  rhsBatch := []
  wf := dot_S20000x256_S256x128_S20000x128_1_0_0_1_n_n_wf

class Facts : Prop extends Facts₀ where

variable [Facts]
-- ==== Proof.KernelRun.lean ====
/-
  The idealized kernel's run with its buffers NAMED.  @main is four segments: host operations, the edge
  network's pallas_call, host operations (the scatter that sums edge messages into their destination
  nodes, and the node network's weights), the node network's pallas_call.  The contents of the
  TensorCore's buffers at the four boundaries are a fold through the program (`Gen.W1` … `Gen.W4`):
  a host stretch applies its operations, a region replaces each of its arrays by what its write-backs
  leave.  Every weakly fair execution ends with every unscoped buffer at the last boundary's contents
  `Gen.W4`; in particular the two results, which the later modules read back through the fold.
-/
import proofs.«147681_j64424509440354_2_alg».proof.Proof.Gen.KernelIdeal.Frame

set_option maxRecDepth 16384

noncomputable section

namespace Cert.KernelIdeal.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with every unscoped buffer of the
    TensorCore at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

end Cert.KernelIdeal.Named

end
-- ==== Proof.LibPlainDot.lean ====
/-
  A plain matrix product read at an index, generic in the three extents.

  For the dimension numbers "rows × contraction times contraction × columns" (`DotDims.plain M K N`:
  no batch axis, the left operand contracted on its last axis, the right on its first), at the ideal
  values — floats extended reals, every operation exact — a `tpu.matmul` into the zero accumulator, read
  at the output index (r, c), is the plain sum over k of lhs (r, k) · rhs (k, c): no rounding and no
  chunk order is left in it.  The contraction index, a one-axis multi-index, is re-indexed by its one
  coordinate.
-/
import Idealize.ShloMosaic.Lib.ValueIdx
import Idealize.ShloMosaic.PureOps.Ideal.Laws

noncomputable section

namespace Cert.Lib.PlainDot

open Idealize.ShloMosaic Idealize.ShloMosaic.ValueIdx

variable {M K N : Nat}

/-- The left operand's index at output index (r, c) and contraction position k is (r, k). -/
theorem lhsIdx_plain (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  exact funext fun a => Fin.ext (by
    match a with
    | ⟨0, _⟩ => rfl
    | ⟨1, _⟩ => exact ((DotDims.plain M K N).lhsIdx_val_of_single rfl _ _).trans hk)

/-- The right operand's index at output index (r, c) and contraction position k is (k, c). -/
theorem rhsIdx_plain (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  exact funext fun a => Fin.ext (by
    match a with
    | ⟨0, _⟩ => exact ((DotDims.plain M K N).rhsIdx_val_of_single rfl _ _).trans hk
    | ⟨1, _⟩ => rfl)

/-- A plain `tpu.matmul` into the zero accumulator, at the ideal values, read at (r, c):
    the sum over k of lhs (r, k) · rhs (k, c). -/
theorem matmul_plain_zero_apply {φ₁ φ₂ : FTy} (prec : Option ContractPrecision)
    (lhs : FVec Ideal ⟨2, ![M, K]⟩ φ₁) (rhs : FVec Ideal ⟨2, ![K, N]⟩ φ₂) (r : Fin M) (c : Fin N) :
    matmul (DotDims.plain M K N) prec lhs rhs (constant (F := Ideal) ⟨2, ![M, N]⟩ .f32 0x00000000#32) (ix2 r c)
      = ∑ k : Fin K, lhs (ix2 r k) * rhs (ix2 k c) := by
  show FloatOps.matmul (DotDims.plain M K N) prec lhs rhs (constant (F := Ideal) ⟨2, ![M, N]⟩ .f32 0x00000000#32) (ix2 r c) = _
  rw [Ideal.matmul_constant_zero_apply, ← Equiv.sum_comp (contrEquiv1 (DotDims.plain M K N) K rfl rfl).symm]
  refine Finset.sum_congr rfl fun k _ => ?_
  rw [lhsIdx_plain, rhsIdx_plain]

end Cert.Lib.PlainDot

end
-- ==== Proof.LibRows.lean ====
/-
  Three layout operations read at an index, generic in the extents.

  A row vector [1, C] broadcast down R rows reads, at (r, c), the row at (0, c).  A vector [C] reshaped to
  the row [1, C] reads, at (0, c), the vector at c.  A block of rows cut out of a matrix [K, N] at row
  offset o reads, at (q, k), the matrix at (o + q, k).
-/
import Idealize.ShloMosaic.Lib.ValueIdx
import Idealize.ShloMosaic.Lib.Pipeline.Value

noncomputable section

namespace Cert.Lib.Rows

open Idealize.ShloMosaic Idealize.ShloMosaic.ValueIdx

variable {α : Type}

/-- A row [1, C] broadcast to [R, C], read at (r, c), is the row at (0, c). -/
theorem broadcastTo_row_apply {R C : Nat} (x : (⟨2, ![1, C]⟩ : Shape).Idx → α)
    (h : (⟨2, ![1, C]⟩ : Shape).Broadcasts ⟨2, ![R, C]⟩) (r : Fin R) (c : Fin C) :
    broadcastTo ⟨2, ![R, C]⟩ x h (ix2 r c) = x (ix2 0 c) :=
  broadcastTo_apply x h (ix2 r c) (ix2 0 c) (fun a => by
    match a with
    | ⟨0, _⟩ => show (0 : Nat) = if (1 : Nat) = 1 then 0 else r.val; rw [if_pos rfl]
    | ⟨1, _⟩ =>
      show c.val = if C = 1 then 0 else c.val
      by_cases hC : C = 1
      · rw [if_pos hC]; have := c.isLt; omega
      · rw [if_neg hC])

/-- A vector [C] reshaped to the row [1, C], read at (0, c), is the vector at c. -/
theorem shapeCast_vec_row_apply {C : Nat} (x : (⟨1, ![C]⟩ : Shape).Idx → α)
    (h : (⟨1, ![C]⟩ : Shape).ShapeCasts ⟨2, ![1, C]⟩) (c : Fin C) :
    shapeCast ⟨2, ![1, C]⟩ x h (ix2 0 c) = x (ix1 c) :=
  shapeCast_apply x h (ix2 0 c) (ix1 c) (by
    rw [Shape.rowMajor_val_one, Shape.rowMajor_val_two]
    show c.val = (0 : Nat) * C + c.val
    omega)

/-- Rows o … o + K' − 1 of a matrix [K, N], read at (q, k), are the matrix at (o + q, k). -/
theorem slice_rows_apply {K K' N o : Nat} (x : (⟨2, ![K, N]⟩ : Shape).Idx → α)
    (h : (⟨2, ![K, N]⟩ : Shape).Slices ![o, 0] ⟨2, ![K', N]⟩) (q : Fin K') (k : Fin N) (hq : o + q.val < K) :
    extractStridedSlice ⟨2, ![K', N]⟩ ![o, 0] x h (ix2 q k) = x (ix2 ⟨o + q.val, hq⟩ k) :=
  extractStridedSlice_apply ![o, 0] x h (ix2 q k) (ix2 ⟨o + q.val, hq⟩ k) (fun a => by
    match a with
    | ⟨0, _⟩ => rfl
    | ⟨1, _⟩ => show k.val = 0 + k.val; omega)

end Cert.Lib.Rows

end
-- ==== Proof.Spec.lean ====
/-
  The two networks of the message-passing step, one output element at a time, on the extended reals.

  A row x (128 features) meets a 128×256 weight block as the 256 sums  rowDot x W k = ∑ q, x q · W (q, k).
  The edge network's hidden layer adds three such rows — the edge's own features, its sender's, its
  receiver's, each against its own block of the first weight matrix — and a bias; the node network's adds
  two (the aggregated messages and the node's own features).  Both then clamp at zero and apply the second
  layer:  outLayer h W₂ b₂ j = ∑ k, max (h k) 0 · W₂ (k, j) + b₂ j.

  The reference computes the hidden layer as ONE contraction of the concatenated row (384 or 256 features)
  with the whole first weight matrix.  The two agree because a sum over a concatenated axis is the sum of
  the sums over its pieces — a law of commutative monoids, true on the extended reals at every value
  (infinite ones included), so no finiteness of the inputs is used.
-/
import Idealize.ShloMosaic.Lib.ValueIdx
import Idealize.ShloMosaic.PureOps.Ideal.Laws

noncomputable section

namespace Cert.Spec

open Idealize.ShloMosaic Idealize.ShloMosaic.ValueIdx

/-- A 128-feature row against column `k` of a 128×256 weight block. -/
def rowDot (x : Fin 128 → EReal) (W : (⟨2, ![128, 256]⟩ : Shape).Idx → EReal) (k : Fin 256) : EReal :=
  ∑ q : Fin 128, x q * W (ix2 q k)

/-- Clamp the 256 hidden values at zero, apply the 256×128 second layer, add its bias: output feature `j`. -/
def outLayer (h : Fin 256 → EReal) (W₂ : (⟨2, ![256, 128]⟩ : Shape).Idx → EReal)
    (b₂ : (⟨2, ![1, 128]⟩ : Shape).Idx → EReal) (j : Fin 128) : EReal :=
  (∑ k : Fin 256, max (h k) 0 * W₂ (ix2 k j)) + b₂ (ix2 0 j)

/-- The edge network on one edge: its own features `a`, its sender's `b`, its receiver's `c`. -/
def edgeRow (a b c : Fin 128 → EReal) (Wa Wb Wc : (⟨2, ![128, 256]⟩ : Shape).Idx → EReal)
    (b₁ : (⟨2, ![1, 256]⟩ : Shape).Idx → EReal) (W₂ : (⟨2, ![256, 128]⟩ : Shape).Idx → EReal)
    (b₂ : (⟨2, ![1, 128]⟩ : Shape).Idx → EReal) (j : Fin 128) : EReal :=
  outLayer (fun k => ((rowDot a Wa k + rowDot b Wb k) + rowDot c Wc k) + b₁ (ix2 0 k)) W₂ b₂ j

/-- The node network on one node: the sum of its incoming messages `a`, its own features `b`. -/
def nodeRow (a b : Fin 128 → EReal) (Wa Wb : (⟨2, ![128, 256]⟩ : Shape).Idx → EReal)
    (b₁ : (⟨2, ![1, 256]⟩ : Shape).Idx → EReal) (W₂ : (⟨2, ![256, 128]⟩ : Shape).Idx → EReal)
    (b₂ : (⟨2, ![1, 128]⟩ : Shape).Idx → EReal) (j : Fin 128) : EReal :=
  outLayer (fun k => (rowDot a Wa k + rowDot b Wb k) + b₁ (ix2 0 k)) W₂ b₂ j

/-- The f32 zero word is the extended real zero. -/
theorem zero_word : (FloatOps.ofBits (F := Ideal) .f32 0x00000000#32 : EReal) = 0 := Ideal.ofBits_zero_f32

/-! ## A sum over a concatenated axis -/

variable {M : Type*} [AddCommMonoid M]

/-- A sum over 256 = 128 + 128 positions is the sum over the first 128 plus the sum over the last 128. -/
theorem sum_split2 (f : Fin 256 → M) :
    ∑ q : Fin 256, f q = (∑ q : Fin 128, f ⟨q.val, by omega⟩) + ∑ q : Fin 128, f ⟨128 + q.val, by omega⟩ := by
  have h := Fin.sum_univ_add (a := 128) (b := 128) (fun i : Fin (128 + 128) => f ⟨i.val, i.isLt⟩)
  exact h

/-- A sum over 384 = 128 + 128 + 128 positions is the sum of the sums over its three thirds. -/
theorem sum_split3 (f : Fin 384 → M) :
    ∑ q : Fin 384, f q = ((∑ q : Fin 128, f ⟨q.val, by omega⟩) + ∑ q : Fin 128, f ⟨128 + q.val, by omega⟩)
      + ∑ q : Fin 128, f ⟨256 + q.val, by omega⟩ := by
  have h := Fin.sum_univ_add (a := 256) (b := 128) (fun i : Fin (256 + 128) => f ⟨i.val, i.isLt⟩)
  have h2 := sum_split2 (fun i : Fin 256 => f ⟨i.val, by omega⟩)
  refine h.trans ?_
  exact congrArg (· + _) h2

end Cert.Spec

end
-- ==== Proof.EdgeBody.lean ====
/-
  The edge network's block computation, one element at a time.

  At a grid point the body loads a 6400-edge block of edge features and of the two gathered node-feature
  arrays, the three 128×256 blocks of the first weight matrix, the biases and the second weight matrix,
  and stores one 6400×128 value.  At the ideal values (format changes are the identity, a matrix product
  into the zero accumulator is a plain sum) that value at (r, j) is the edge network `Spec.edgeRow` on
  row r of the three loaded blocks.
-/
import proofs.«147681_j64424509440354_2_alg».proof.Proof.Gen.KernelIdeal.Skeleton
import proofs.«147681_j64424509440354_2_alg».proof.Proof.LibPlainDot
import proofs.«147681_j64424509440354_2_alg».proof.Proof.LibRows
import proofs.«147681_j64424509440354_2_alg».proof.Proof.Spec

set_option maxRecDepth 16384

noncomputable section

namespace Cert.KernelIdeal.EdgeBody

open Idealize.ShloMosaic Idealize.ShloMosaic.ValueIdx
open Cert.KernelIdeal Cert.KernelIdeal.Gen Cert.Lib.PlainDot Cert.Lib.Rows Cert.Spec

/-- The two printed dimension-number records of the body are the plain "rows × contraction times
    contraction × columns" ones. -/
theorem dims_first : dot_S6400x128_S128x256_S6400x256_1_0_0_1_n_n = DotDims.plain 6400 128 256 := rfl
theorem dims_second : dot_S6400x256_S256x128_S6400x128_1_0_0_1_n_n = DotDims.plain 6400 256 128 := rfl

/-- The stored value at (r, j): the edge network on row r of the loaded blocks. -/
theorem pay_apply (v0 : Vec Ideal S6400x128 .f32) (v2 : Vec Ideal S128x256 .bf16) (v5 : Vec Ideal S6400x128 .bf16)
    (v7 : Vec Ideal S128x256 .bf16) (v11 : Vec Ideal S6400x128 .bf16) (v13 : Vec Ideal S128x256 .bf16)
    (v17 : Vec Ideal S1x256 .f32) (v24 : Vec Ideal S256x128 .bf16) (v27 : Vec Ideal S1x128 .f32)
    (r : Fin 6400) (j : Fin 128) :
    k0_pay1 v0 v2 v5 v7 v11 v13 v17 v24 v27 (ix2 r j)
      = edgeRow (fun q => v0 (ix2 r q)) (fun q => v5 (ix2 r q)) (fun q => v11 (ix2 r q)) v2 v7 v13 v17 v24 v27 j := by
  unfold k0_pay1 edgeRow outLayer rowDot
  simp only [dims_first, dims_second, shapeCast_self, addf_apply, maximumf_apply, truncf_apply, broadcast_apply,
    matmul_plain_zero_apply, broadcastTo_row_apply]
  rw [zero_word]

end Cert.KernelIdeal.EdgeBody

end
-- ==== Proof.Arrays.lean ====
/-
  The two output arrays as whole-array functions of the arrays the networks read.

  `edgeOut`: entry (e, j) of the updated edge features is the edge network on row e of the edge features,
  of the gathered sender features and of the gathered receiver features.  `nodeOut`: entry (n, j) of the
  updated node features is the node network on row n of the aggregated messages and of the node features.
-/
import proofs.«147681_j64424509440354_2_alg».proof.Proof.Spec

noncomputable section

namespace Cert.Spec

open Idealize.ShloMosaic Idealize.ShloMosaic.ValueIdx

/-- The updated edge features, 640000 × 128. -/
def edgeOut (A B C : (⟨2, ![640000, 128]⟩ : Shape).Idx → EReal) (Wa Wb Wc : (⟨2, ![128, 256]⟩ : Shape).Idx → EReal)
    (b₁ : (⟨2, ![1, 256]⟩ : Shape).Idx → EReal) (W₂ : (⟨2, ![256, 128]⟩ : Shape).Idx → EReal)
    (b₂ : (⟨2, ![1, 128]⟩ : Shape).Idx → EReal) : (⟨2, ![640000, 128]⟩ : Shape).Idx → EReal := fun i =>
  edgeRow (fun q => A (ix2 ⟨(i 0).val, idx2_lt0 i⟩ q)) (fun q => B (ix2 ⟨(i 0).val, idx2_lt0 i⟩ q))
    (fun q => C (ix2 ⟨(i 0).val, idx2_lt0 i⟩ q)) Wa Wb Wc b₁ W₂ b₂ ⟨(i 1).val, idx2_lt1 i⟩

theorem edgeOut_apply (A B C : (⟨2, ![640000, 128]⟩ : Shape).Idx → EReal) (Wa Wb Wc : (⟨2, ![128, 256]⟩ : Shape).Idx → EReal)
    (b₁ : (⟨2, ![1, 256]⟩ : Shape).Idx → EReal) (W₂ : (⟨2, ![256, 128]⟩ : Shape).Idx → EReal)
    (b₂ : (⟨2, ![1, 128]⟩ : Shape).Idx → EReal) (e : Fin 640000) (j : Fin 128) :
    edgeOut A B C Wa Wb Wc b₁ W₂ b₂ (ix2 e j)
      = edgeRow (fun q => A (ix2 e q)) (fun q => B (ix2 e q)) (fun q => C (ix2 e q)) Wa Wb Wc b₁ W₂ b₂ j := rfl

/-- The updated node features, 20000 × 128. -/
def nodeOut (A B : (⟨2, ![20000, 128]⟩ : Shape).Idx → EReal) (Wa Wb : (⟨2, ![128, 256]⟩ : Shape).Idx → EReal)
    (b₁ : (⟨2, ![1, 256]⟩ : Shape).Idx → EReal) (W₂ : (⟨2, ![256, 128]⟩ : Shape).Idx → EReal)
    (b₂ : (⟨2, ![1, 128]⟩ : Shape).Idx → EReal) : (⟨2, ![20000, 128]⟩ : Shape).Idx → EReal := fun i =>
  nodeRow (fun q => A (ix2 ⟨(i 0).val, idx2_lt0 i⟩ q)) (fun q => B (ix2 ⟨(i 0).val, idx2_lt0 i⟩ q))
    Wa Wb b₁ W₂ b₂ ⟨(i 1).val, idx2_lt1 i⟩

theorem nodeOut_apply (A B : (⟨2, ![20000, 128]⟩ : Shape).Idx → EReal) (Wa Wb : (⟨2, ![128, 256]⟩ : Shape).Idx → EReal)
    (b₁ : (⟨2, ![1, 256]⟩ : Shape).Idx → EReal) (W₂ : (⟨2, ![256, 128]⟩ : Shape).Idx → EReal)
    (b₂ : (⟨2, ![1, 128]⟩ : Shape).Idx → EReal) (n : Fin 20000) (j : Fin 128) :
    nodeOut A B Wa Wb b₁ W₂ b₂ (ix2 n j)
      = nodeRow (fun q => A (ix2 n q)) (fun q => B (ix2 n q)) Wa Wb b₁ W₂ b₂ j := rfl

end Cert.Spec

end
-- ==== Proof.EdgeRegion.lean ====
/-
  The edge network's pallas_call: from blocks to the whole array.

  The grid has 100 points; point t works on rows 6400·t … 6400·t + 6399 of the three edge-row arrays
  (edge features, gathered sender features, gathered receiver features) and of the output, and on the
  whole of each weight and bias array.  What point t writes back is therefore block t of ONE whole-array
  function, `Spec.edgeOut` of the arrays as the region finds them; the 100 blocks tile the 640000 rows, so
  after the region the output array IS that function.  Stated at any entry contents `V`.
-/
import proofs.«147681_j64424509440354_2_alg».proof.Proof.Gen.KernelIdeal.Frame
import proofs.«147681_j64424509440354_2_alg».proof.Proof.EdgeBody
import proofs.«147681_j64424509440354_2_alg».proof.Proof.Arrays

set_option maxRecDepth 16384

noncomputable section

namespace Cert.KernelIdeal.EdgeRegion

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Spec

variable (V : (c : Dev nD) → (b : Ref sig .tc) → Buf (Elt Ideal) ((c : Thread nD τ).loc b))

theorem hz : (![0, 0] : Fin 2 → Nat) = fun _ => 0 := funext fun a => by fin_cases a <;> rfl

theorem hN : cfg0.N = 100 := N_0

/-- The printed index maps of the row windows, decided over the grid: block t on the row axis, block 0 on
    the feature axis. -/
theorem idx_rows : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_9.index t (0 : Fin 2) = t.val ∧ win0_9.index t (1 : Fin 2) = 0) :=
  (by decide +kernel : ∀ t : Fin grid0.N, _)

/-- The weight and bias windows stay on block (0, 0). -/
theorem idx_whole : ∀ t : Fin cfg0.N,
    (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0) :=
  (by decide +kernel : ∀ t : Fin grid0.N, _)

/-- Row r of point t's block of window 0 is row 6400·t + r of its array. -/
theorem blk0_apply (c : Dev nD) (t : Fin cfg0.N) (r : Fin 6400) (q : Fin 128) (hr : t.val * 6400 + r.val < 640000) :
    iblk0 V c 0 t (ix2 r q) = V c main_arg1 (ix2 ⟨t.val * 6400 + r.val, hr⟩ q) := by
  have e0 := (idx_rows t).1
  show V c main_arg1 (((cfg0.win 0).blk t).view.emb (ix2 r q)) = _
  refine congrArg (V c main_arg1) (funext fun a => Fin.ext ?_)
  match a with
  | ⟨0, _⟩ => show win0_0.index t (0 : Fin 2) * 6400 + 1 * r.val = t.val * 6400 + r.val; rw [e0.1]; omega
  | ⟨1, _⟩ => show win0_0.index t (1 : Fin 2) * 128 + 1 * q.val = q.val; rw [e0.2]; omega

/-- Row r of point t's block of window 1 is row 6400·t + r of its array. -/
theorem blk1_apply (c : Dev nD) (t : Fin cfg0.N) (r : Fin 6400) (q : Fin 128) (hr : t.val * 6400 + r.val < 640000) :
    iblk0 V c 1 t (ix2 r q) = V c main_v7 (ix2 ⟨t.val * 6400 + r.val, hr⟩ q) := by
  have e0 := (idx_rows t).2.1
  show V c main_v7 (((cfg0.win 1).blk t).view.emb (ix2 r q)) = _
  refine congrArg (V c main_v7) (funext fun a => Fin.ext ?_)
  match a with
  | ⟨0, _⟩ => show win0_1.index t (0 : Fin 2) * 6400 + 1 * r.val = t.val * 6400 + r.val; rw [e0.1]; omega
  | ⟨1, _⟩ => show win0_1.index t (1 : Fin 2) * 128 + 1 * q.val = q.val; rw [e0.2]; omega

/-- Row r of point t's block of window 2 is row 6400·t + r of its array. -/
theorem blk2_apply (c : Dev nD) (t : Fin cfg0.N) (r : Fin 6400) (q : Fin 128) (hr : t.val * 6400 + r.val < 640000) :
    iblk0 V c 2 t (ix2 r q) = V c main_v14 (ix2 ⟨t.val * 6400 + r.val, hr⟩ q) := by
  have e0 := (idx_rows t).2.2.1
  show V c main_v14 (((cfg0.win 2).blk t).view.emb (ix2 r q)) = _
  refine congrArg (V c main_v14) (funext fun a => Fin.ext ?_)
  match a with
  | ⟨0, _⟩ => show win0_2.index t (0 : Fin 2) * 6400 + 1 * r.val = t.val * 6400 + r.val; rw [e0.1]; omega
  | ⟨1, _⟩ => show win0_2.index t (1 : Fin 2) * 128 + 1 * q.val = q.val; rw [e0.2]; omega

/-- Window 3 has one block, its whole array. -/
theorem blk3_eq (c : Dev nD) (t : Fin cfg0.N) : iblk0 V c 3 t = V c main_v16 := by
  have e0 := (idx_whole t).1
  funext y
  show V c main_v16 (((cfg0.win 3).blk t).view.emb y) = V c main_v16 y
  refine congrArg (V c main_v16) (funext fun a => Fin.ext ?_)
  match a with
  | ⟨0, _⟩ => show win0_3.index t (0 : Fin 2) * 128 + 1 * (y 0).val = (y 0).val; rw [e0.1]; omega
  | ⟨1, _⟩ => show win0_3.index t (1 : Fin 2) * 256 + 1 * (y 1).val = (y 1).val; rw [e0.2]; omega

/-- Window 4 has one block, its whole array. -/
theorem blk4_eq (c : Dev nD) (t : Fin cfg0.N) : iblk0 V c 4 t = V c main_v18 := by
  have e0 := (idx_whole t).2.1
  funext y
  show V c main_v18 (((cfg0.win 4).blk t).view.emb y) = V c main_v18 y
  refine congrArg (V c main_v18) (funext fun a => Fin.ext ?_)
  match a with
  | ⟨0, _⟩ => show win0_4.index t (0 : Fin 2) * 128 + 1 * (y 0).val = (y 0).val; rw [e0.1]; omega
  | ⟨1, _⟩ => show win0_4.index t (1 : Fin 2) * 256 + 1 * (y 1).val = (y 1).val; rw [e0.2]; omega

/-- Window 5 has one block, its whole array. -/
theorem blk5_eq (c : Dev nD) (t : Fin cfg0.N) : iblk0 V c 5 t = V c main_v20 := by
  have e0 := (idx_whole t).2.2.1
  funext y
  show V c main_v20 (((cfg0.win 5).blk t).view.emb y) = V c main_v20 y
  refine congrArg (V c main_v20) (funext fun a => Fin.ext ?_)
  match a with
  | ⟨0, _⟩ => show win0_5.index t (0 : Fin 2) * 128 + 1 * (y 0).val = (y 0).val; rw [e0.1]; omega
  | ⟨1, _⟩ => show win0_5.index t (1 : Fin 2) * 256 + 1 * (y 1).val = (y 1).val; rw [e0.2]; omega

/-- Window 6 has one block, its whole array. -/
theorem blk6_eq (c : Dev nD) (t : Fin cfg0.N) : iblk0 V c 6 t = V c main_v22 := by
  have e0 := (idx_whole t).2.2.2.1
  funext y
  show V c main_v22 (((cfg0.win 6).blk t).view.emb y) = V c main_v22 y
  refine congrArg (V c main_v22) (funext fun a => Fin.ext ?_)
  match a with
  | ⟨0, _⟩ => show win0_6.index t (0 : Fin 2) * 1 + 1 * (y 0).val = (y 0).val; rw [e0.1]; omega
  | ⟨1, _⟩ => show win0_6.index t (1 : Fin 2) * 256 + 1 * (y 1).val = (y 1).val; rw [e0.2]; omega

/-- Window 7 has one block, its whole array. -/
theorem blk7_eq (c : Dev nD) (t : Fin cfg0.N) : iblk0 V c 7 t = V c main_v21 := by
  have e0 := (idx_whole t).2.2.2.2.1
  funext y
  show V c main_v21 (((cfg0.win 7).blk t).view.emb y) = V c main_v21 y
  refine congrArg (V c main_v21) (funext fun a => Fin.ext ?_)
  match a with
  | ⟨0, _⟩ => show win0_7.index t (0 : Fin 2) * 256 + 1 * (y 0).val = (y 0).val; rw [e0.1]; omega
  | ⟨1, _⟩ => show win0_7.index t (1 : Fin 2) * 128 + 1 * (y 1).val = (y 1).val; rw [e0.2]; omega

/-- Window 8 has one block, its whole array. -/
theorem blk8_eq (c : Dev nD) (t : Fin cfg0.N) : iblk0 V c 8 t = V c main_v23 := by
  have e0 := (idx_whole t).2.2.2.2.2
  funext y
  show V c main_v23 (((cfg0.win 8).blk t).view.emb y) = V c main_v23 y
  refine congrArg (V c main_v23) (funext fun a => Fin.ext ?_)
  match a with
  | ⟨0, _⟩ => show win0_8.index t (0 : Fin 2) * 1 + 1 * (y 0).val = (y 0).val; rw [e0.1]; omega
  | ⟨1, _⟩ => show win0_8.index t (1 : Fin 2) * 128 + 1 * (y 1).val = (y 1).val; rw [e0.2]; omega

/-- What point t writes back is block t of `edgeOut` of the arrays as the region finds them. -/
theorem flushed_eq (c : Dev nD) (t : Fin cfg0.N) :
    (dat0 V c).flushed 9 t = ((cfg0.win 9).blk t).view.read (Elt Ideal)
      (edgeOut (V c main_arg1) (V c main_v7) (V c main_v14) (V c main_v16) (V c main_v18) (V c main_v20)
        (V c main_v22) (V c main_v21) (V c main_v23)) := by
  show (cfg0.win 9).cut (grid0.coords t) ((dat0 V c).after 9 t) = _
  rw [after0_9]
  unfold out0_9
  rw [View.canon_unit_zero hz]
  simp only [View.ld_unit_zero (S := S6400x128) hz, View.ld_unit_zero (S := S128x256) hz, View.ld_unit_zero (S := S1x256) hz,
    View.ld_unit_zero (S := S256x128) hz, View.ld_unit_zero (S := S1x128) hz]
  funext y
  obtain ⟨r, j, rfl⟩ : ∃ (r : Fin 6400) (j : Fin 128), y = ix2 r j := ⟨y 0, y 1, eq_ix2 y⟩
  have e9 := (idx_rows t).2.2.2
  have hr : t.val * 6400 + r.val < 640000 := by
    have h1 : t.val < 100 := hN ▸ t.isLt
    have h2 := r.isLt
    omega
  have hemb : ((cfg0.win 9).blk t).view.emb (ix2 r j) = ix2 ⟨t.val * 6400 + r.val, hr⟩ j := funext fun a => Fin.ext (by
    match a with
    | ⟨0, _⟩ => show win0_9.index t (0 : Fin 2) * 6400 + 1 * r.val = t.val * 6400 + r.val; rw [e9.1]; omega
    | ⟨1, _⟩ => show win0_9.index t (1 : Fin 2) * 128 + 1 * j.val = j.val; rw [e9.2]; omega)
  show k0_pay1 (iblk0 V c 0 t) (iblk0 V c 3 t) (iblk0 V c 1 t) (iblk0 V c 4 t) (iblk0 V c 2 t) (iblk0 V c 5 t)
      (iblk0 V c 6 t) (iblk0 V c 7 t) (iblk0 V c 8 t) (ix2 r j) = _
  refine (EdgeBody.pay_apply (iblk0 V c 0 t) (iblk0 V c 3 t) (iblk0 V c 1 t) (iblk0 V c 4 t) (iblk0 V c 2 t) (iblk0 V c 5 t)
      (iblk0 V c 6 t) (iblk0 V c 7 t) (iblk0 V c 8 t) r j).trans ?_
  rw [View.read_apply, hemb, edgeOut_apply]
  have h0 : (fun q => iblk0 V c 0 t (ix2 r q)) = fun q => V c main_arg1 (ix2 ⟨t.val * 6400 + r.val, hr⟩ q) :=
    funext fun q => blk0_apply V c t r q hr
  have h1 : (fun q => iblk0 V c 1 t (ix2 r q)) = fun q => V c main_v7 (ix2 ⟨t.val * 6400 + r.val, hr⟩ q) :=
    funext fun q => blk1_apply V c t r q hr
  have h2 : (fun q => iblk0 V c 2 t (ix2 r q)) = fun q => V c main_v14 (ix2 ⟨t.val * 6400 + r.val, hr⟩ q) :=
    funext fun q => blk2_apply V c t r q hr
  rw [h0, h1, h2, blk3_eq V c t, blk4_eq V c t, blk5_eq V c t, blk6_eq V c t, blk7_eq V c t, blk8_eq V c t]
  exact (cast_eq _ _).symm

/-- An index of the output array is in point t's block iff each coordinate is in the block's range. -/
theorem mem_blk (t : Fin cfg0.N) (i : S640000x128.Idx) :
    i ∈ ((cfg0.win 9).blk t).view.set ↔ ∀ a : Fin 2, win0_9.index t a * S6400x128.size a ≤ (i a).val
      ∧ (i a).val < win0_9.index t a * S6400x128.size a + S6400x128.size a := by
  show i ∈ ((View.whole main_v24).slice (win0_9.rect t)).set ↔ _
  rw [View.set_slice_whole, Rect.mem_set_unit]
  exact Iff.rfl

/-- Every row of the output lies in the block of the point  row / 6400. -/
theorem cover (i : S640000x128.Idx) :
    ∃ t : Fin cfg0.N, (cfg0.win 9).flush t = true ∧ i ∈ ((cfg0.win 9).blk t).view.set := by
  have hi0 : (i 0).val < 640000 := (i 0).isLt
  have hi1 : (i 1).val < 128 := (i 1).isLt
  have ht : (i 0).val / 6400 < cfg0.N := by rw [hN]; omega
  refine ⟨⟨(i 0).val / 6400, ht⟩, flush0_9 _, ?_⟩
  have e9 := (idx_rows ⟨(i 0).val / 6400, ht⟩).2.2.2
  rw [mem_blk]
  intro a
  match a with
  | ⟨0, _⟩ =>
    show win0_9.index ⟨(i 0).val / 6400, ht⟩ (0 : Fin 2) * 6400 ≤ (i 0).val
      ∧ (i 0).val < win0_9.index ⟨(i 0).val / 6400, ht⟩ (0 : Fin 2) * 6400 + 6400
    rw [e9.1]; show (i 0).val / 6400 * 6400 ≤ (i 0).val ∧ (i 0).val < (i 0).val / 6400 * 6400 + 6400; omega
  | ⟨1, _⟩ =>
    show win0_9.index ⟨(i 0).val / 6400, ht⟩ (1 : Fin 2) * 128 ≤ (i 1).val
      ∧ (i 1).val < win0_9.index ⟨(i 0).val / 6400, ht⟩ (1 : Fin 2) * 128 + 128
    rw [e9.2]; omega

/-- After the region the output array is `edgeOut` of the arrays as the region found them. -/
theorem final (c : Dev nD) :
    (dat0 V c).arrAt 9 cfg0.N = edgeOut (V c main_arg1) (V c main_v7) (V c main_v14) (V c main_v16) (V c main_v18)
      (V c main_v20) (V c main_v22) (V c main_v21) (V c main_v23) :=
  (dat0 V c).arrAt_eq_of_cover 9 _ (fun t _ => flushed_eq V c t) cover

end Cert.KernelIdeal.EdgeRegion

end
-- ==== Proof.NodeBody.lean ====
/-
  The node network's block computation, one element at a time.

  At a grid point the body loads a 5000-node block of aggregated messages and of node features, the two
  128×256 blocks of the first weight matrix, the biases and the second weight matrix, and stores one
  5000×128 value.  At the ideal values that value at (r, j) is the node network `Spec.nodeRow` on row r
  of the two loaded blocks.
-/
import proofs.«147681_j64424509440354_2_alg».proof.Proof.Gen.KernelIdeal.Skeleton
import proofs.«147681_j64424509440354_2_alg».proof.Proof.LibPlainDot
import proofs.«147681_j64424509440354_2_alg».proof.Proof.LibRows
import proofs.«147681_j64424509440354_2_alg».proof.Proof.Spec

set_option maxRecDepth 16384

noncomputable section

namespace Cert.KernelIdeal.NodeBody

open Idealize.ShloMosaic Idealize.ShloMosaic.ValueIdx
open Cert.KernelIdeal Cert.KernelIdeal.Gen Cert.Lib.PlainDot Cert.Lib.Rows Cert.Spec

/-- The two printed dimension-number records of the body are the plain "rows × contraction times
    contraction × columns" ones. -/
theorem dims_first : dot_S5000x128_S128x256_S5000x256_1_0_0_1_n_n = DotDims.plain 5000 128 256 := rfl
theorem dims_second : dot_S5000x256_S256x128_S5000x128_1_0_0_1_n_n = DotDims.plain 5000 256 128 := rfl

/-- The stored value at (r, j): the node network on row r of the loaded blocks. -/
theorem pay_apply (v0 : Vec Ideal S5000x128 .f32) (v3 : Vec Ideal S5000x128 .f32) (v5 : Vec Ideal S128x256 .bf16)
    (v8 : Vec Ideal S128x256 .bf16) (v12 : Vec Ideal S1x256 .f32) (v19 : Vec Ideal S256x128 .bf16)
    (v22 : Vec Ideal S1x128 .f32) (r : Fin 5000) (j : Fin 128) :
    k1_pay1 v0 v3 v5 v8 v12 v19 v22 (ix2 r j)
      = nodeRow (fun q => v0 (ix2 r q)) (fun q => v3 (ix2 r q)) v5 v8 v12 v19 v22 j := by
  unfold k1_pay1 nodeRow outLayer rowDot
  simp only [dims_first, dims_second, shapeCast_self, addf_apply, maximumf_apply, truncf_apply, broadcast_apply,
    matmul_plain_zero_apply, broadcastTo_row_apply]
  rw [zero_word]

end Cert.KernelIdeal.NodeBody

end
-- ==== Proof.NodeRegion.lean ====
/-
  The node network's pallas_call: from blocks to the whole array.

  The grid has 4 points; point t works on rows 5000·t … 5000·t + 4999 of the aggregated messages, of the
  node features and of the output, and on the whole of each weight and bias array.  What point t writes
  back is block t of ONE whole-array function, `Spec.nodeOut` of the arrays as the region finds them; the
  4 blocks tile the 20000 rows, so after the region the output array IS that function.  Stated at any
  entry contents `V`.
-/
import proofs.«147681_j64424509440354_2_alg».proof.Proof.Gen.KernelIdeal.Frame
import proofs.«147681_j64424509440354_2_alg».proof.Proof.NodeBody
import proofs.«147681_j64424509440354_2_alg».proof.Proof.Arrays

set_option maxRecDepth 16384

noncomputable section

namespace Cert.KernelIdeal.NodeRegion

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Spec

variable (V : (c : Dev nD) → (b : Ref sig .tc) → Buf (Elt Ideal) ((c : Thread nD τ).loc b))

theorem hz : (![0, 0] : Fin 2 → Nat) = fun _ => 0 := funext fun a => by fin_cases a <;> rfl

theorem hN : cfg1.N = 4 := N_1

/-- The printed index maps of the row windows, decided over the grid: block t on the row axis, block 0 on
    the feature axis. -/
theorem idx_rows : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_7.index t (0 : Fin 2) = t.val ∧ win1_7.index t (1 : Fin 2) = 0) :=
  (by decide +kernel : ∀ t : Fin grid1.N, _)

/-- The weight and bias windows stay on block (0, 0). -/
theorem idx_whole : ∀ t : Fin cfg1.N,
    (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0) :=
  (by decide +kernel : ∀ t : Fin grid1.N, _)

/-- Row r of point t's block of window 0 is row 5000·t + r of its array. -/
theorem blk0_apply (c : Dev nD) (t : Fin cfg1.N) (r : Fin 5000) (q : Fin 128) (hr : t.val * 5000 + r.val < 20000) :
    iblk1 V c 0 t (ix2 r q) = V c main_v27 (ix2 ⟨t.val * 5000 + r.val, hr⟩ q) := by
  have e0 := (idx_rows t).1
  show V c main_v27 (((cfg1.win 0).blk t).view.emb (ix2 r q)) = _
  refine congrArg (V c main_v27) (funext fun a => Fin.ext ?_)
  match a with
  | ⟨0, _⟩ => show win1_0.index t (0 : Fin 2) * 5000 + 1 * r.val = t.val * 5000 + r.val; rw [e0.1]; omega
  | ⟨1, _⟩ => show win1_0.index t (1 : Fin 2) * 128 + 1 * q.val = q.val; rw [e0.2]; omega

/-- Row r of point t's block of window 1 is row 5000·t + r of its array. -/
theorem blk1_apply (c : Dev nD) (t : Fin cfg1.N) (r : Fin 5000) (q : Fin 128) (hr : t.val * 5000 + r.val < 20000) :
    iblk1 V c 1 t (ix2 r q) = V c main_arg0 (ix2 ⟨t.val * 5000 + r.val, hr⟩ q) := by
  have e0 := (idx_rows t).2.1
  show V c main_arg0 (((cfg1.win 1).blk t).view.emb (ix2 r q)) = _
  refine congrArg (V c main_arg0) (funext fun a => Fin.ext ?_)
  match a with
  | ⟨0, _⟩ => show win1_1.index t (0 : Fin 2) * 5000 + 1 * r.val = t.val * 5000 + r.val; rw [e0.1]; omega
  | ⟨1, _⟩ => show win1_1.index t (1 : Fin 2) * 128 + 1 * q.val = q.val; rw [e0.2]; omega

/-- Window 2 has one block, its whole array. -/
theorem blk2_eq (c : Dev nD) (t : Fin cfg1.N) : iblk1 V c 2 t = V c main_v29 := by
  have e0 := (idx_whole t).1
  funext y
  show V c main_v29 (((cfg1.win 2).blk t).view.emb y) = V c main_v29 y
  refine congrArg (V c main_v29) (funext fun a => Fin.ext ?_)
  match a with
  | ⟨0, _⟩ => show win1_2.index t (0 : Fin 2) * 128 + 1 * (y 0).val = (y 0).val; rw [e0.1]; omega
  | ⟨1, _⟩ => show win1_2.index t (1 : Fin 2) * 256 + 1 * (y 1).val = (y 1).val; rw [e0.2]; omega

/-- Window 3 has one block, its whole array. -/
theorem blk3_eq (c : Dev nD) (t : Fin cfg1.N) : iblk1 V c 3 t = V c main_v31 := by
  have e0 := (idx_whole t).2.1
  funext y
  show V c main_v31 (((cfg1.win 3).blk t).view.emb y) = V c main_v31 y
  refine congrArg (V c main_v31) (funext fun a => Fin.ext ?_)
  match a with
  | ⟨0, _⟩ => show win1_3.index t (0 : Fin 2) * 128 + 1 * (y 0).val = (y 0).val; rw [e0.1]; omega
  | ⟨1, _⟩ => show win1_3.index t (1 : Fin 2) * 256 + 1 * (y 1).val = (y 1).val; rw [e0.2]; omega

/-- Window 4 has one block, its whole array. -/
theorem blk4_eq (c : Dev nD) (t : Fin cfg1.N) : iblk1 V c 4 t = V c main_v33 := by
  have e0 := (idx_whole t).2.2.1
  funext y
  show V c main_v33 (((cfg1.win 4).blk t).view.emb y) = V c main_v33 y
  refine congrArg (V c main_v33) (funext fun a => Fin.ext ?_)
  match a with
  | ⟨0, _⟩ => show win1_4.index t (0 : Fin 2) * 1 + 1 * (y 0).val = (y 0).val; rw [e0.1]; omega
  | ⟨1, _⟩ => show win1_4.index t (1 : Fin 2) * 256 + 1 * (y 1).val = (y 1).val; rw [e0.2]; omega

/-- Window 5 has one block, its whole array. -/
theorem blk5_eq (c : Dev nD) (t : Fin cfg1.N) : iblk1 V c 5 t = V c main_v32 := by
  have e0 := (idx_whole t).2.2.2.1
  funext y
  show V c main_v32 (((cfg1.win 5).blk t).view.emb y) = V c main_v32 y
  refine congrArg (V c main_v32) (funext fun a => Fin.ext ?_)
  match a with
  | ⟨0, _⟩ => show win1_5.index t (0 : Fin 2) * 256 + 1 * (y 0).val = (y 0).val; rw [e0.1]; omega
  | ⟨1, _⟩ => show win1_5.index t (1 : Fin 2) * 128 + 1 * (y 1).val = (y 1).val; rw [e0.2]; omega

/-- Window 6 has one block, its whole array. -/
theorem blk6_eq (c : Dev nD) (t : Fin cfg1.N) : iblk1 V c 6 t = V c main_v34 := by
  have e0 := (idx_whole t).2.2.2.2
  funext y
  show V c main_v34 (((cfg1.win 6).blk t).view.emb y) = V c main_v34 y
  refine congrArg (V c main_v34) (funext fun a => Fin.ext ?_)
  match a with
  | ⟨0, _⟩ => show win1_6.index t (0 : Fin 2) * 1 + 1 * (y 0).val = (y 0).val; rw [e0.1]; omega
  | ⟨1, _⟩ => show win1_6.index t (1 : Fin 2) * 128 + 1 * (y 1).val = (y 1).val; rw [e0.2]; omega

/-- What point t writes back is block t of `nodeOut` of the arrays as the region finds them. -/
theorem flushed_eq (c : Dev nD) (t : Fin cfg1.N) :
    (dat1 V c).flushed 7 t = ((cfg1.win 7).blk t).view.read (Elt Ideal)
      (nodeOut (V c main_v27) (V c main_arg0) (V c main_v29) (V c main_v31) (V c main_v33) (V c main_v32) (V c main_v34)) := by
  show (cfg1.win 7).cut (grid1.coords t) ((dat1 V c).after 7 t) = _
  rw [after1_7]
  unfold out1_7
  rw [View.canon_unit_zero hz]
  simp only [View.ld_unit_zero (S := S5000x128) hz, View.ld_unit_zero (S := S128x256) hz, View.ld_unit_zero (S := S1x256) hz,
    View.ld_unit_zero (S := S256x128) hz, View.ld_unit_zero (S := S1x128) hz]
  funext y
  obtain ⟨r, j, rfl⟩ : ∃ (r : Fin 5000) (j : Fin 128), y = ix2 r j := ⟨y 0, y 1, eq_ix2 y⟩
  have e7 := (idx_rows t).2.2
  have hr : t.val * 5000 + r.val < 20000 := by
    have h1 : t.val < 4 := hN ▸ t.isLt
    have h2 := r.isLt
    omega
  have hemb : ((cfg1.win 7).blk t).view.emb (ix2 r j) = ix2 ⟨t.val * 5000 + r.val, hr⟩ j := funext fun a => Fin.ext (by
    match a with
    | ⟨0, _⟩ => show win1_7.index t (0 : Fin 2) * 5000 + 1 * r.val = t.val * 5000 + r.val; rw [e7.1]; omega
    | ⟨1, _⟩ => show win1_7.index t (1 : Fin 2) * 128 + 1 * j.val = j.val; rw [e7.2]; omega)
  show k1_pay1 (iblk1 V c 0 t) (iblk1 V c 1 t) (iblk1 V c 2 t) (iblk1 V c 3 t) (iblk1 V c 4 t) (iblk1 V c 5 t)
      (iblk1 V c 6 t) (ix2 r j) = _
  refine (NodeBody.pay_apply (iblk1 V c 0 t) (iblk1 V c 1 t) (iblk1 V c 2 t) (iblk1 V c 3 t) (iblk1 V c 4 t) (iblk1 V c 5 t)
      (iblk1 V c 6 t) r j).trans ?_
  rw [View.read_apply, hemb, nodeOut_apply]
  have h0 : (fun q => iblk1 V c 0 t (ix2 r q)) = fun q => V c main_v27 (ix2 ⟨t.val * 5000 + r.val, hr⟩ q) :=
    funext fun q => blk0_apply V c t r q hr
  have h1 : (fun q => iblk1 V c 1 t (ix2 r q)) = fun q => V c main_arg0 (ix2 ⟨t.val * 5000 + r.val, hr⟩ q) :=
    funext fun q => blk1_apply V c t r q hr
  rw [h0, h1, blk2_eq V c t, blk3_eq V c t, blk4_eq V c t, blk5_eq V c t, blk6_eq V c t]
  exact (cast_eq _ _).symm

/-- An index of the output array is in point t's block iff each coordinate is in the block's range. -/
theorem mem_blk (t : Fin cfg1.N) (i : S20000x128.Idx) :
    i ∈ ((cfg1.win 7).blk t).view.set ↔ ∀ a : Fin 2, win1_7.index t a * S5000x128.size a ≤ (i a).val
      ∧ (i a).val < win1_7.index t a * S5000x128.size a + S5000x128.size a := by
  show i ∈ ((View.whole main_v35).slice (win1_7.rect t)).set ↔ _
  rw [View.set_slice_whole, Rect.mem_set_unit]
  exact Iff.rfl

/-- Every row of the output lies in the block of the point  row / 5000. -/
theorem cover (i : S20000x128.Idx) :
    ∃ t : Fin cfg1.N, (cfg1.win 7).flush t = true ∧ i ∈ ((cfg1.win 7).blk t).view.set := by
  have hi0 : (i 0).val < 20000 := (i 0).isLt
  have hi1 : (i 1).val < 128 := (i 1).isLt
  have ht : (i 0).val / 5000 < cfg1.N := by rw [hN]; omega
  refine ⟨⟨(i 0).val / 5000, ht⟩, flush1_7 _, ?_⟩
  have e7 := (idx_rows ⟨(i 0).val / 5000, ht⟩).2.2
  rw [mem_blk]
  intro a
  match a with
  | ⟨0, _⟩ =>
    show win1_7.index ⟨(i 0).val / 5000, ht⟩ (0 : Fin 2) * 5000 ≤ (i 0).val
      ∧ (i 0).val < win1_7.index ⟨(i 0).val / 5000, ht⟩ (0 : Fin 2) * 5000 + 5000
    rw [e7.1]; show (i 0).val / 5000 * 5000 ≤ (i 0).val ∧ (i 0).val < (i 0).val / 5000 * 5000 + 5000; omega
  | ⟨1, _⟩ =>
    show win1_7.index ⟨(i 0).val / 5000, ht⟩ (1 : Fin 2) * 128 ≤ (i 1).val
      ∧ (i 1).val < win1_7.index ⟨(i 0).val / 5000, ht⟩ (1 : Fin 2) * 128 + 128
    rw [e7.2]; omega

/-- After the region the output array is `nodeOut` of the arrays as the region found them. -/
theorem final (c : Dev nD) :
    (dat1 V c).arrAt 7 cfg1.N = nodeOut (V c main_v27) (V c main_arg0) (V c main_v29) (V c main_v31) (V c main_v33)
      (V c main_v32) (V c main_v34) :=
  (dat1 V c).arrAt_eq_of_cover 7 _ (fun t _ => flushed_eq V c t) cover

end Cert.KernelIdeal.NodeRegion

end
-- ==== Proof.KernelValue.lean ====
/-
  The kernel's two results as functions of its twelve arguments.

  Reading the last boundary's contents back through the fold of @main: the first host stretch gathers the
  sender and receiver rows of the node features (negative indices wrapped by the node count), cuts the
  first edge weight matrix into its three 128-row blocks and turns the two bias vectors into rows; the
  edge network's pallas_call leaves `Spec.edgeOut` of those; the second host stretch scatter-sums that
  array at the destination indices into a zero array, cuts the first node weight matrix into its two
  blocks and turns the biases into rows; the node network's pallas_call leaves `Spec.nodeOut` of those.
  Format changes are the identity at the ideal values, so none is left in the two terms.
-/
import proofs.«147681_j64424509440354_2_alg».proof.Proof.Gen.KernelIdeal.Frame
import proofs.«147681_j64424509440354_2_alg».proof.Proof.EdgeRegion
import proofs.«147681_j64424509440354_2_alg».proof.Proof.NodeRegion
import Idealize.ShloMosaic.PureOps.Ideal

set_option maxRecDepth 16384

noncomputable section

namespace Cert.KernelIdeal.Results

open Idealize.ShloMosaic Idealize.ShloMosaic.TcCoe Idealize.SL.Sem Idealize.ShloMosaic.StableHlo
open Cert.KernelIdeal Cert.KernelIdeal.Gen Cert.Spec

/-- An index vector as the column of start indices a gather takes, a negative index moved up by the node count. -/
def starts (x : (⟨S640000, .i32⟩ : BufTy).Contents (Elt Ideal)) : (⟨S640000x1, .i32⟩ : BufTy).Contents (Elt Ideal) :=
  broadcastInDim S640000x1 ![0] bcast_S640000_S640000x1_0
    (select (cmpi .slt x (broadcastInDim S640000 ![] bcast_S_S640000 (constantI S_ 32 0#32)))
      (addi x (broadcastInDim S640000 ![] bcast_S_S640000 (constantI S_ 32 20000#32))) x)

/-- The rows of the node features at an index vector. -/
def gathered (nf : (⟨S20000x128, .f32⟩ : BufTy).Contents (Elt Ideal)) (x : (⟨S640000, .i32⟩ : BufTy).Contents (Elt Ideal)) :
    (⟨S640000x128, .f32⟩ : BufTy).Contents (Elt Ideal) :=
  Host.gather gather_S20000x128_S640000x1_S640000x128_1_0_n_n_0_1_1128 nf (starts x)

/-- The updated edge features, of the kernel's first eight arguments. -/
def edgeResult (a0 : (⟨S20000x128, .f32⟩ : BufTy).Contents (Elt Ideal)) (a1 : (⟨S640000x128, .f32⟩ : BufTy).Contents (Elt Ideal))
    (a2 a3 : (⟨S640000, .i32⟩ : BufTy).Contents (Elt Ideal)) (a4 : (⟨S384x256, .f32⟩ : BufTy).Contents (Elt Ideal))
    (a5 : (⟨S256, .f32⟩ : BufTy).Contents (Elt Ideal)) (a6 : (⟨S256x128, .f32⟩ : BufTy).Contents (Elt Ideal))
    (a7 : (⟨S128, .f32⟩ : BufTy).Contents (Elt Ideal)) : (⟨S640000x128, .f32⟩ : BufTy).Contents (Elt Ideal) :=
  edgeOut a1 (gathered a0 a2) (gathered a0 a3)
    (extractStridedSlice S128x256 ![0, 0] a4 slices_S384x256_S128x256_0_0)
    (extractStridedSlice S128x256 ![128, 0] a4 slices_S384x256_S128x256_128_0)
    (extractStridedSlice S128x256 ![256, 0] a4 slices_S384x256_S128x256_256_0)
    (shapeCast S1x256 a5 shapeCasts_S256_S1x256) a6 (shapeCast S1x128 a7 shapeCasts_S128_S1x128)

/-- The edge messages summed at their destination nodes. -/
def aggregated (a3 : (⟨S640000, .i32⟩ : BufTy).Contents (Elt Ideal)) (u : (⟨S640000x128, .f32⟩ : BufTy).Contents (Elt Ideal)) :
    (⟨S20000x128, .f32⟩ : BufTy).Contents (Elt Ideal) :=
  Host.scatterAdd scatter_S20000x128_S640000x1_S640000x128_1_0_0_1
    (broadcastInDim S20000x128 ![] bcast_S_S20000x128 (constant (F := Ideal) S_ .f32 0x00000000#32))
    (broadcastInDim S640000x1 ![0] bcast_S640000_S640000x1_0 a3) u

/-- The updated node features, of the kernel's twelve arguments. -/
def nodeResult (a0 : (⟨S20000x128, .f32⟩ : BufTy).Contents (Elt Ideal)) (a1 : (⟨S640000x128, .f32⟩ : BufTy).Contents (Elt Ideal))
    (a2 a3 : (⟨S640000, .i32⟩ : BufTy).Contents (Elt Ideal)) (a4 : (⟨S384x256, .f32⟩ : BufTy).Contents (Elt Ideal))
    (a5 : (⟨S256, .f32⟩ : BufTy).Contents (Elt Ideal)) (a6 : (⟨S256x128, .f32⟩ : BufTy).Contents (Elt Ideal))
    (a7 : (⟨S128, .f32⟩ : BufTy).Contents (Elt Ideal)) (a8 : (⟨S256x256, .f32⟩ : BufTy).Contents (Elt Ideal))
    (a9 : (⟨S256, .f32⟩ : BufTy).Contents (Elt Ideal)) (a10 : (⟨S256x128, .f32⟩ : BufTy).Contents (Elt Ideal))
    (a11 : (⟨S128, .f32⟩ : BufTy).Contents (Elt Ideal)) : (⟨S20000x128, .f32⟩ : BufTy).Contents (Elt Ideal) :=
  nodeOut (aggregated a3 (edgeResult a0 a1 a2 a3 a4 a5 a6 a7)) a0
    (extractStridedSlice S128x256 ![0, 0] a8 slices_S256x256_S128x256_0_0)
    (extractStridedSlice S128x256 ![128, 0] a8 slices_S256x256_S128x256_128_0)
    (shapeCast S1x256 a9 shapeCasts_S256_S1x256) a10 (shapeCast S1x128 a11 shapeCasts_S128_S1x128)

variable (m : (ℓ : Loc nD τ sig) → Buf (Elt Ideal) ℓ) (ρ : Dev nD → PrngReg)

/-! ## The arrays the edge network's region finds -/

theorem V1_arg1 (c : Dev nD) : V1 m ρ c main_arg1 = (m ((c : Thread nD τ).loc main_arg1)) := by
  show StableHlo.after hostOps0 (W0 m ρ c) (Proc.devRef .tc main_arg1) = _
  after_results_simp <;> rfl
theorem V1_v7 (c : Dev nD) : V1 m ρ c main_v7 = gathered (m ((c : Thread nD τ).loc main_arg0)) (m ((c : Thread nD τ).loc main_arg2)) := by
  show StableHlo.after hostOps0 (W0 m ρ c) (Proc.devRef .tc main_v7) = _
  after_results_simp <;> rfl
theorem V1_v14 (c : Dev nD) : V1 m ρ c main_v14 = gathered (m ((c : Thread nD τ).loc main_arg0)) (m ((c : Thread nD τ).loc main_arg3)) := by
  show StableHlo.after hostOps0 (W0 m ρ c) (Proc.devRef .tc main_v14) = _
  after_results_simp <;> rfl
theorem V1_v16 (c : Dev nD) : V1 m ρ c main_v16 = extractStridedSlice S128x256 ![0, 0] (m ((c : Thread nD τ).loc main_arg4)) slices_S384x256_S128x256_0_0 := by
  show StableHlo.after hostOps0 (W0 m ρ c) (Proc.devRef .tc main_v16) = _
  after_results_simp <;> rfl
theorem V1_v18 (c : Dev nD) : V1 m ρ c main_v18 = extractStridedSlice S128x256 ![128, 0] (m ((c : Thread nD τ).loc main_arg4)) slices_S384x256_S128x256_128_0 := by
  show StableHlo.after hostOps0 (W0 m ρ c) (Proc.devRef .tc main_v18) = _
  after_results_simp <;> rfl
theorem V1_v20 (c : Dev nD) : V1 m ρ c main_v20 = extractStridedSlice S128x256 ![256, 0] (m ((c : Thread nD τ).loc main_arg4)) slices_S384x256_S128x256_256_0 := by
  show StableHlo.after hostOps0 (W0 m ρ c) (Proc.devRef .tc main_v20) = _
  after_results_simp <;> rfl
theorem V1_v22 (c : Dev nD) : V1 m ρ c main_v22 = shapeCast S1x256 (m ((c : Thread nD τ).loc main_arg5)) shapeCasts_S256_S1x256 := by
  show StableHlo.after hostOps0 (W0 m ρ c) (Proc.devRef .tc main_v22) = _
  after_results_simp <;> rfl
theorem V1_v21 (c : Dev nD) : V1 m ρ c main_v21 = (m ((c : Thread nD τ).loc main_arg6)) := by
  show StableHlo.after hostOps0 (W0 m ρ c) (Proc.devRef .tc main_v21) = _
  after_results_simp <;> rfl
theorem V1_v23 (c : Dev nD) : V1 m ρ c main_v23 = shapeCast S1x128 (m ((c : Thread nD τ).loc main_arg7)) shapeCasts_S128_S1x128 := by
  show StableHlo.after hostOps0 (W0 m ρ c) (Proc.devRef .tc main_v23) = _
  after_results_simp <;> rfl

/-- After the edge network's region its output array is `edgeResult` of the arguments. -/
theorem edge_W2 (c : Dev nD) : W2 m ρ c (Proc.devRef .tc main_v24)
    = edgeResult (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W2_arr m ρ c 9).trans ((EdgeRegion.final (V1 m ρ) c).trans ?_)
  rw [V1_arg1, V1_v7, V1_v14, V1_v16, V1_v18, V1_v20, V1_v22, V1_v21, V1_v23]
  rfl

/-- The edge result is still there at the end: neither the second host stretch nor the node network's region writes it. -/
theorem v24_eq (c : Dev nD) : W4 m ρ c (Proc.devRef .tc main_v24)
    = edgeResult (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W4_of_ne m ρ c main_v24 (by decide)).trans (Eq.trans ?_ (edge_W2 m ρ c))
  show StableHlo.after hostOps1 (W2 m ρ c) (Proc.devRef .tc main_v24) = _
  after_results_simp <;> rfl

/-! ## The arrays the node network's region finds -/

/-- An argument is as launched when the edge network's region ends: no host operation writes it and it is not the region's output. -/
theorem W2_arg0 (c : Dev nD) : W2 m ρ c (Proc.devRef .tc main_arg0) = (m ((c : Thread nD τ).loc main_arg0)) := by
  refine (W2_of_ne m ρ c main_arg0 (by decide)).trans ?_
  show StableHlo.after hostOps0 (W0 m ρ c) (Proc.devRef .tc main_arg0) = _
  after_results_simp <;> rfl
theorem W2_arg3 (c : Dev nD) : W2 m ρ c (Proc.devRef .tc main_arg3) = (m ((c : Thread nD τ).loc main_arg3)) := by
  refine (W2_of_ne m ρ c main_arg3 (by decide)).trans ?_
  show StableHlo.after hostOps0 (W0 m ρ c) (Proc.devRef .tc main_arg3) = _
  after_results_simp <;> rfl
theorem W2_arg8 (c : Dev nD) : W2 m ρ c (Proc.devRef .tc main_arg8) = (m ((c : Thread nD τ).loc main_arg8)) := by
  refine (W2_of_ne m ρ c main_arg8 (by decide)).trans ?_
  show StableHlo.after hostOps0 (W0 m ρ c) (Proc.devRef .tc main_arg8) = _
  after_results_simp <;> rfl
theorem W2_arg9 (c : Dev nD) : W2 m ρ c (Proc.devRef .tc main_arg9) = (m ((c : Thread nD τ).loc main_arg9)) := by
  refine (W2_of_ne m ρ c main_arg9 (by decide)).trans ?_
  show StableHlo.after hostOps0 (W0 m ρ c) (Proc.devRef .tc main_arg9) = _
  after_results_simp <;> rfl
theorem W2_arg10 (c : Dev nD) : W2 m ρ c (Proc.devRef .tc main_arg10) = (m ((c : Thread nD τ).loc main_arg10)) := by
  refine (W2_of_ne m ρ c main_arg10 (by decide)).trans ?_
  show StableHlo.after hostOps0 (W0 m ρ c) (Proc.devRef .tc main_arg10) = _
  after_results_simp <;> rfl
theorem W2_arg11 (c : Dev nD) : W2 m ρ c (Proc.devRef .tc main_arg11) = (m ((c : Thread nD τ).loc main_arg11)) := by
  refine (W2_of_ne m ρ c main_arg11 (by decide)).trans ?_
  show StableHlo.after hostOps0 (W0 m ρ c) (Proc.devRef .tc main_arg11) = _
  after_results_simp <;> rfl

theorem V3_v27 (c : Dev nD) : V3 m ρ c main_v27
    = aggregated (m ((c : Thread nD τ).loc main_arg3)) (edgeResult (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  show StableHlo.after hostOps1 (W2 m ρ c) (Proc.devRef .tc main_v27) = _
  after_results_simp
  rw [W2_arg3, edge_W2]
  rfl
theorem V3_arg0 (c : Dev nD) : V3 m ρ c main_arg0 = (m ((c : Thread nD τ).loc main_arg0)) := by
  show StableHlo.after hostOps1 (W2 m ρ c) (Proc.devRef .tc main_arg0) = _
  after_results_simp
  exact W2_arg0 m ρ c
theorem V3_v29 (c : Dev nD) : V3 m ρ c main_v29 = extractStridedSlice S128x256 ![0, 0] (m ((c : Thread nD τ).loc main_arg8)) slices_S256x256_S128x256_0_0 := by
  show StableHlo.after hostOps1 (W2 m ρ c) (Proc.devRef .tc main_v29) = _
  after_results_simp
  rw [W2_arg8]
  rfl
theorem V3_v31 (c : Dev nD) : V3 m ρ c main_v31 = extractStridedSlice S128x256 ![128, 0] (m ((c : Thread nD τ).loc main_arg8)) slices_S256x256_S128x256_128_0 := by
  show StableHlo.after hostOps1 (W2 m ρ c) (Proc.devRef .tc main_v31) = _
  after_results_simp
  rw [W2_arg8]
  rfl
theorem V3_v33 (c : Dev nD) : V3 m ρ c main_v33 = shapeCast S1x256 (m ((c : Thread nD τ).loc main_arg9)) shapeCasts_S256_S1x256 := by
  show StableHlo.after hostOps1 (W2 m ρ c) (Proc.devRef .tc main_v33) = _
  after_results_simp
  rw [W2_arg9]
  rfl
theorem V3_v32 (c : Dev nD) : V3 m ρ c main_v32 = (m ((c : Thread nD τ).loc main_arg10)) := by
  show StableHlo.after hostOps1 (W2 m ρ c) (Proc.devRef .tc main_v32) = _
  after_results_simp
  rw [W2_arg10]
  rfl
theorem V3_v34 (c : Dev nD) : V3 m ρ c main_v34 = shapeCast S1x128 (m ((c : Thread nD τ).loc main_arg11)) shapeCasts_S128_S1x128 := by
  show StableHlo.after hostOps1 (W2 m ρ c) (Proc.devRef .tc main_v34) = _
  after_results_simp
  rw [W2_arg11]
  rfl

/-- After the node network's region its output array is `nodeResult` of the arguments. -/
theorem v35_eq (c : Dev nD) : W4 m ρ c (Proc.devRef .tc main_v35)
    = nodeResult (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W4_arr m ρ c 7).trans ((NodeRegion.final (V3 m ρ) c).trans ?_)
  rw [V3_v27, V3_arg0, V3_v29, V3_v31, V3_v33, V3_v32, V3_v34]
  rfl

end Cert.KernelIdeal.Results

end
-- ==== Proof.LibConcat.lean ====
/-
  A concatenation of 128-column blocks along the column axis, read at an index, generic in the row count.

  Two or three arrays [R, 128] joined along axis 1 give [R, 256] or [R, 384]; column 128·p + q of the
  joined array, in any row e, is column q of operand p in row e.
-/
import Idealize.ShloMosaic.Lib.ValueIdx
import Idealize.ShloMosaic.Lib.Pipeline.Value

noncomputable section

namespace Cert.Lib.Concat

open Idealize.ShloMosaic Idealize.ShloMosaic.ValueIdx

variable {α : Type}

/-- Piece 0 of 3: columns 0 … 127 of the joined array are the first operand. -/
theorem concat3_apply_0 {R : Nat} (A : (⟨2, ![R, 128]⟩ : Shape).Idx → α) (B : (⟨2, ![R, 128]⟩ : Shape).Idx → α) (C : (⟨2, ![R, 128]⟩ : Shape).Idx → α)
    (h : Shape.Concatenates [(⟨2, ![R, 128]⟩ : Shape), (⟨2, ![R, 128]⟩ : Shape), (⟨2, ![R, 128]⟩ : Shape)] ⟨2, ![R, 384]⟩ 1)
    (e : Fin R) (q : Fin 128) (hq : 0 + q.val < 384) :
    concatenate ⟨2, ![R, 384]⟩ 1 [⟨⟨2, ![R, 128]⟩, A⟩, ⟨⟨2, ![R, 128]⟩, B⟩, ⟨⟨2, ![R, 128]⟩, C⟩] h (ix2 e ⟨0 + q.val, hq⟩) = A (ix2 e q) :=
  concatenate_apply_piece (t := ⟨2, ![R, 384]⟩) 1 [⟨⟨2, ![R, 128]⟩, A⟩, ⟨⟨2, ![R, 128]⟩, B⟩, ⟨⟨2, ![R, 128]⟩, C⟩] h (ix2 e ⟨0 + q.val, hq⟩)
    0 (by simp) ⟨2, ![R, 128]⟩ A rfl rfl 0 rfl (ix2 e q)
    (fun b hb => by
      match b with
      | ⟨0, _⟩ => rfl
      | ⟨1, _⟩ => exact absurd rfl hb)
    rfl

/-- Piece 1 of 3: columns 128 … 255 of the joined array are the second operand. -/
theorem concat3_apply_1 {R : Nat} (A : (⟨2, ![R, 128]⟩ : Shape).Idx → α) (B : (⟨2, ![R, 128]⟩ : Shape).Idx → α) (C : (⟨2, ![R, 128]⟩ : Shape).Idx → α)
    (h : Shape.Concatenates [(⟨2, ![R, 128]⟩ : Shape), (⟨2, ![R, 128]⟩ : Shape), (⟨2, ![R, 128]⟩ : Shape)] ⟨2, ![R, 384]⟩ 1)
    (e : Fin R) (q : Fin 128) (hq : 128 + q.val < 384) :
    concatenate ⟨2, ![R, 384]⟩ 1 [⟨⟨2, ![R, 128]⟩, A⟩, ⟨⟨2, ![R, 128]⟩, B⟩, ⟨⟨2, ![R, 128]⟩, C⟩] h (ix2 e ⟨128 + q.val, hq⟩) = B (ix2 e q) :=
  concatenate_apply_piece (t := ⟨2, ![R, 384]⟩) 1 [⟨⟨2, ![R, 128]⟩, A⟩, ⟨⟨2, ![R, 128]⟩, B⟩, ⟨⟨2, ![R, 128]⟩, C⟩] h (ix2 e ⟨128 + q.val, hq⟩)
    1 (by simp) ⟨2, ![R, 128]⟩ B rfl rfl 128 rfl (ix2 e q)
    (fun b hb => by
      match b with
      | ⟨0, _⟩ => rfl
      | ⟨1, _⟩ => exact absurd rfl hb)
    rfl

/-- Piece 2 of 3: columns 256 … 383 of the joined array are the third operand. -/
theorem concat3_apply_2 {R : Nat} (A : (⟨2, ![R, 128]⟩ : Shape).Idx → α) (B : (⟨2, ![R, 128]⟩ : Shape).Idx → α) (C : (⟨2, ![R, 128]⟩ : Shape).Idx → α)
    (h : Shape.Concatenates [(⟨2, ![R, 128]⟩ : Shape), (⟨2, ![R, 128]⟩ : Shape), (⟨2, ![R, 128]⟩ : Shape)] ⟨2, ![R, 384]⟩ 1)
    (e : Fin R) (q : Fin 128) (hq : 256 + q.val < 384) :
    concatenate ⟨2, ![R, 384]⟩ 1 [⟨⟨2, ![R, 128]⟩, A⟩, ⟨⟨2, ![R, 128]⟩, B⟩, ⟨⟨2, ![R, 128]⟩, C⟩] h (ix2 e ⟨256 + q.val, hq⟩) = C (ix2 e q) :=
  concatenate_apply_piece (t := ⟨2, ![R, 384]⟩) 1 [⟨⟨2, ![R, 128]⟩, A⟩, ⟨⟨2, ![R, 128]⟩, B⟩, ⟨⟨2, ![R, 128]⟩, C⟩] h (ix2 e ⟨256 + q.val, hq⟩)
    2 (by simp) ⟨2, ![R, 128]⟩ C rfl rfl 256 rfl (ix2 e q)
    (fun b hb => by
      match b with
      | ⟨0, _⟩ => rfl
      | ⟨1, _⟩ => exact absurd rfl hb)
    rfl

/-- Piece 0 of 2: columns 0 … 127 of the joined array are the first operand. -/
theorem concat2_apply_0 {R : Nat} (A : (⟨2, ![R, 128]⟩ : Shape).Idx → α) (B : (⟨2, ![R, 128]⟩ : Shape).Idx → α)
    (h : Shape.Concatenates [(⟨2, ![R, 128]⟩ : Shape), (⟨2, ![R, 128]⟩ : Shape)] ⟨2, ![R, 256]⟩ 1)
    (e : Fin R) (q : Fin 128) (hq : 0 + q.val < 256) :
    concatenate ⟨2, ![R, 256]⟩ 1 [⟨⟨2, ![R, 128]⟩, A⟩, ⟨⟨2, ![R, 128]⟩, B⟩] h (ix2 e ⟨0 + q.val, hq⟩) = A (ix2 e q) :=
  concatenate_apply_piece (t := ⟨2, ![R, 256]⟩) 1 [⟨⟨2, ![R, 128]⟩, A⟩, ⟨⟨2, ![R, 128]⟩, B⟩] h (ix2 e ⟨0 + q.val, hq⟩)
    0 (by simp) ⟨2, ![R, 128]⟩ A rfl rfl 0 rfl (ix2 e q)
    (fun b hb => by
      match b with
      | ⟨0, _⟩ => rfl
      | ⟨1, _⟩ => exact absurd rfl hb)
    rfl

/-- Piece 1 of 2: columns 128 … 255 of the joined array are the second operand. -/
theorem concat2_apply_1 {R : Nat} (A : (⟨2, ![R, 128]⟩ : Shape).Idx → α) (B : (⟨2, ![R, 128]⟩ : Shape).Idx → α)
    (h : Shape.Concatenates [(⟨2, ![R, 128]⟩ : Shape), (⟨2, ![R, 128]⟩ : Shape)] ⟨2, ![R, 256]⟩ 1)
    (e : Fin R) (q : Fin 128) (hq : 128 + q.val < 256) :
    concatenate ⟨2, ![R, 256]⟩ 1 [⟨⟨2, ![R, 128]⟩, A⟩, ⟨⟨2, ![R, 128]⟩, B⟩] h (ix2 e ⟨128 + q.val, hq⟩) = B (ix2 e q) :=
  concatenate_apply_piece (t := ⟨2, ![R, 256]⟩) 1 [⟨⟨2, ![R, 128]⟩, A⟩, ⟨⟨2, ![R, 128]⟩, B⟩] h (ix2 e ⟨128 + q.val, hq⟩)
    1 (by simp) ⟨2, ![R, 128]⟩ B rfl rfl 128 rfl (ix2 e q)
    (fun b hb => by
      match b with
      | ⟨0, _⟩ => rfl
      | ⟨1, _⟩ => exact absurd rfl hb)
    rfl

end Cert.Lib.Concat

end
-- ==== Proof.RefSide.lean ====
/-
  The reference, read at an index.

  jnp computes the edge network as  relu (concat [ef, nf[src], nf[dst]] · We1 + be1) · We2 + be2  and the node
  network as  relu (concat [agg, nf] · Wn1 + bn1) · Wn2 + bn2, with agg the scatter-sum of the updated edge
  features at their destination nodes.  Element by element: the contraction of a concatenated row with
  the whole first weight matrix splits into the contractions of its 128-feature pieces with the
  corresponding 128-row blocks of that matrix (a sum over a concatenated axis is the sum of the sums over
  its pieces), the bias vector read through its row form, the clamp at the zero word.  So the reference's
  two results are `Spec.edgeOut` and `Spec.nodeOut` of the gathered arrays, the row blocks of the first weight
  matrices and the biases as rows.  The gathers and the scatter are not opened.
-/
import proofs.«147681_j64424509440354_2_alg».proof.Proof.Gen.ReferenceIdeal.Read
import proofs.«147681_j64424509440354_2_alg».proof.Proof.Arrays
import proofs.«147681_j64424509440354_2_alg».proof.Proof.LibRows
import proofs.«147681_j64424509440354_2_alg».proof.Proof.LibConcat

set_option maxRecDepth 16384

noncomputable section

namespace Cert.ReferenceIdeal.AtIndex

open Idealize.ShloMosaic Idealize.ShloMosaic.ValueIdx
open Cert.ReferenceIdeal Cert.ReferenceIdeal.Gen Cert.ReferenceIdeal.Read Cert.Spec Cert.Lib.Rows Cert.Lib.Concat

/-! ## The edge network -/

section Edge

variable (x0 : (⟨S20000x128, .f32⟩ : BufTy).Contents (Elt Ideal)) (x1 : (⟨S640000x128, .f32⟩ : BufTy).Contents (Elt Ideal)) (x2 x3 : (⟨S640000, .i32⟩ : BufTy).Contents (Elt Ideal)) (x4 : (⟨S384x256, .f32⟩ : BufTy).Contents (Elt Ideal)) (x5 : (⟨S256, .f32⟩ : BufTy).Contents (Elt Ideal)) (x6 : (⟨S256x128, .f32⟩ : BufTy).Contents (Elt Ideal)) (x7 : (⟨S128, .f32⟩ : BufTy).Contents (Elt Ideal))
variable (h0 : (⟨2, ![384, 256]⟩ : Shape).Slices ![0, 0] ⟨2, ![128, 256]⟩)
  (h1 : (⟨2, ![384, 256]⟩ : Shape).Slices ![128, 0] ⟨2, ![128, 256]⟩)
  (h2 : (⟨2, ![384, 256]⟩ : Shape).Slices ![256, 0] ⟨2, ![128, 256]⟩)
  (hb1 : (⟨1, ![256]⟩ : Shape).ShapeCasts ⟨2, ![1, 256]⟩) (hb2 : (⟨1, ![128]⟩ : Shape).ShapeCasts ⟨2, ![1, 128]⟩)

/-- The hidden layer before the clamp, at edge e and hidden unit k. -/
theorem hidden (e : Fin 640000) (k : Fin 256) :
    val_main_v18 (F := Ideal) x0 x1 x2 x3 x4 x5 (ix2 e k)
      = ((rowDot (fun q => x1 (ix2 e q)) (extractStridedSlice ⟨2, ![128, 256]⟩ ![0, 0] x4 h0) k
          + rowDot (fun q => val_main_v6 (F := Ideal) x0 x2 (ix2 e q)) (extractStridedSlice ⟨2, ![128, 256]⟩ ![128, 0] x4 h1) k)
          + rowDot (fun q => val_main_v13 (F := Ideal) x0 x3 (ix2 e q)) (extractStridedSlice ⟨2, ![128, 256]⟩ ![256, 0] x4 h2) k)
        + shapeCast ⟨2, ![1, 256]⟩ x5 hb1 (ix2 0 k) := by
  rw [val_main_v18_apply, val_main_v15_apply, val_main_v17_apply, val_main_v16_apply, shapeCast_vec_row_apply x5 hb1 k]
  have hl : ∀ q : Fin 384, lidx_main_v15 (ix2 e k) q = ix2 e q := fun q => funext fun a => by
    match a with
    | ⟨0, _⟩ => rfl
    | ⟨1, _⟩ => rfl
  have hr : ∀ q : Fin 384, ridx_main_v15 (ix2 e k) q = ix2 q k := fun q => funext fun a => by
    match a with
    | ⟨0, _⟩ => rfl
    | ⟨1, _⟩ => rfl
  have hb : idx_main_v16 (idx_main_v17 (ix2 e k)) = ix1 k := funext fun a => by
    match a with
    | ⟨0, _⟩ => rfl
  simp only [hl, hr, hb]
  show (∑ q : Fin 384, val_main_v14 (F := Ideal) x0 x1 x2 x3 (ix2 e q) * x4 (ix2 q k)) + x5 (ix1 k) = _
  refine congrArg (· + x5 (ix1 k)) ?_
  rw [sum_split3]
  unfold rowDot
  refine congrArg₂ (· + ·) (congrArg₂ (· + ·) (Finset.sum_congr rfl fun q _ => ?_) (Finset.sum_congr rfl fun q _ => ?_))
    (Finset.sum_congr rfl fun q _ => ?_)
  · have hq : 0 + q.val < 384 := by have := q.isLt; omega
    have e0 : (⟨q.val, by have := q.isLt; omega⟩ : Fin 384) = ⟨0 + q.val, hq⟩ := Fin.ext (Nat.zero_add _).symm
    rw [e0]
    exact congrArg₂ (· * ·)
      (concat3_apply_0 x1 (val_main_v6 (F := Ideal) x0 x2) (val_main_v13 (F := Ideal) x0 x3)
        concatenates_S640000x128_S640000x128_S640000x128_S640000x384_d1 e q hq)
      (slice_rows_apply x4 h0 q k hq).symm
  · have hq : 128 + q.val < 384 := by have := q.isLt; omega
    exact congrArg₂ (· * ·)
      (concat3_apply_1 x1 (val_main_v6 (F := Ideal) x0 x2) (val_main_v13 (F := Ideal) x0 x3)
        concatenates_S640000x128_S640000x128_S640000x128_S640000x384_d1 e q hq)
      (slice_rows_apply x4 h1 q k hq).symm
  · have hq : 256 + q.val < 384 := by have := q.isLt; omega
    exact congrArg₂ (· * ·)
      (concat3_apply_2 x1 (val_main_v6 (F := Ideal) x0 x2) (val_main_v13 (F := Ideal) x0 x3)
        concatenates_S640000x128_S640000x128_S640000x128_S640000x384_d1 e q hq)
      (slice_rows_apply x4 h2 q k hq).symm

/-- The second layer over the clamped hidden layer, at edge e and output feature j. -/
theorem out_apply (e : Fin 640000) (j : Fin 128) :
    val_main_v23 (F := Ideal) x0 x1 x2 x3 x4 x5 x6 x7 (ix2 e j)
      = outLayer (fun k => val_main_v18 (F := Ideal) x0 x1 x2 x3 x4 x5 (ix2 e k)) x6 (shapeCast ⟨2, ![1, 128]⟩ x7 hb2) j := by
  rw [val_main_v23_apply, val_main_v20_apply, val_main_v22_apply, val_main_v21_apply]
  unfold outLayer
  rw [shapeCast_vec_row_apply x7 hb2 j]
  have hl : ∀ k : Fin 256, lidx_main_v20 (ix2 e j) k = ix2 e k := fun k => funext fun a => by
    match a with
    | ⟨0, _⟩ => rfl
    | ⟨1, _⟩ => rfl
  have hr : ∀ k : Fin 256, ridx_main_v20 (ix2 e j) k = ix2 k j := fun k => funext fun a => by
    match a with
    | ⟨0, _⟩ => rfl
    | ⟨1, _⟩ => rfl
  have hb : idx_main_v21 (idx_main_v22 (ix2 e j)) = ix1 j := funext fun a => by
    match a with
    | ⟨0, _⟩ => rfl
  simp only [hl, hr, hb]
  show (∑ k : Fin 256, val_main_v19 (F := Ideal) x0 x1 x2 x3 x4 x5 (ix2 e k) * x6 (ix2 k j)) + x7 (ix1 j) = _
  refine congrArg (· + x7 (ix1 j)) (Finset.sum_congr rfl fun k _ => ?_)
  rw [val_main_v19_apply, val_main_call0_v0_apply, val_main_call0_cst_apply, zero_word]
  rfl

/-- The reference's updated edge features are `edgeOut` of the edge features, the two gathered arrays, the
    three row blocks of the first weight matrix, its bias as a row, the second weight matrix and its bias as a row. -/
theorem edge_eq :
    val_main_v23 (F := Ideal) x0 x1 x2 x3 x4 x5 x6 x7
      = edgeOut x1 (val_main_v6 (F := Ideal) x0 x2) (val_main_v13 (F := Ideal) x0 x3)
          (extractStridedSlice ⟨2, ![128, 256]⟩ ![0, 0] x4 h0) (extractStridedSlice ⟨2, ![128, 256]⟩ ![128, 0] x4 h1)
          (extractStridedSlice ⟨2, ![128, 256]⟩ ![256, 0] x4 h2) (shapeCast ⟨2, ![1, 256]⟩ x5 hb1) x6
          (shapeCast ⟨2, ![1, 128]⟩ x7 hb2) := by
  funext i
  obtain ⟨e, j, rfl⟩ : ∃ (e : Fin 640000) (j : Fin 128), i = ix2 e j := ⟨i 0, i 1, eq_ix2 i⟩
  rw [edgeOut_apply, out_apply x0 x1 x2 x3 x4 x5 x6 x7 hb2 e j]
  unfold edgeRow
  exact congrArg (fun h => outLayer h x6 (shapeCast ⟨2, ![1, 128]⟩ x7 hb2) j)
    (funext fun k => hidden x0 x1 x2 x3 x4 x5 h0 h1 h2 hb1 e k)

end Edge

/-! ## The node network -/

section Node

variable (x0 : (⟨S20000x128, .f32⟩ : BufTy).Contents (Elt Ideal)) (x1 : (⟨S640000x128, .f32⟩ : BufTy).Contents (Elt Ideal)) (x2 x3 : (⟨S640000, .i32⟩ : BufTy).Contents (Elt Ideal)) (x4 : (⟨S384x256, .f32⟩ : BufTy).Contents (Elt Ideal)) (x5 : (⟨S256, .f32⟩ : BufTy).Contents (Elt Ideal)) (x6 : (⟨S256x128, .f32⟩ : BufTy).Contents (Elt Ideal)) (x7 : (⟨S128, .f32⟩ : BufTy).Contents (Elt Ideal)) (x8 : (⟨S256x256, .f32⟩ : BufTy).Contents (Elt Ideal)) (x9 : (⟨S256, .f32⟩ : BufTy).Contents (Elt Ideal)) (x10 : (⟨S256x128, .f32⟩ : BufTy).Contents (Elt Ideal)) (x11 : (⟨S128, .f32⟩ : BufTy).Contents (Elt Ideal))
variable (g0 : (⟨2, ![256, 256]⟩ : Shape).Slices ![0, 0] ⟨2, ![128, 256]⟩)
  (g1 : (⟨2, ![256, 256]⟩ : Shape).Slices ![128, 0] ⟨2, ![128, 256]⟩)
  (gb1 : (⟨1, ![256]⟩ : Shape).ShapeCasts ⟨2, ![1, 256]⟩) (gb2 : (⟨1, ![128]⟩ : Shape).ShapeCasts ⟨2, ![1, 128]⟩)

/-- The hidden layer before the clamp, at node n and hidden unit k. -/
theorem hiddenN (n : Fin 20000) (k : Fin 256) :
    val_main_v31 (F := Ideal) x0 x1 x2 x3 x4 x5 x6 x7 x8 x9 (ix2 n k)
      = (rowDot (fun q => val_main_v26 (F := Ideal) x0 x1 x2 x3 x4 x5 x6 x7 (ix2 n q)) (extractStridedSlice ⟨2, ![128, 256]⟩ ![0, 0] x8 g0) k
          + rowDot (fun q => x0 (ix2 n q)) (extractStridedSlice ⟨2, ![128, 256]⟩ ![128, 0] x8 g1) k)
        + shapeCast ⟨2, ![1, 256]⟩ x9 gb1 (ix2 0 k) := by
  rw [val_main_v31_apply, val_main_v28_apply, val_main_v30_apply, val_main_v29_apply, shapeCast_vec_row_apply x9 gb1 k]
  have hl : ∀ q : Fin 256, lidx_main_v28 (ix2 n k) q = ix2 n q := fun q => funext fun a => by
    match a with
    | ⟨0, _⟩ => rfl
    | ⟨1, _⟩ => rfl
  have hr : ∀ q : Fin 256, ridx_main_v28 (ix2 n k) q = ix2 q k := fun q => funext fun a => by
    match a with
    | ⟨0, _⟩ => rfl
    | ⟨1, _⟩ => rfl
  have hb : idx_main_v29 (idx_main_v30 (ix2 n k)) = ix1 k := funext fun a => by
    match a with
    | ⟨0, _⟩ => rfl
  simp only [hl, hr, hb]
  show (∑ q : Fin 256, val_main_v27 (F := Ideal) x0 x1 x2 x3 x4 x5 x6 x7 (ix2 n q) * x8 (ix2 q k)) + x9 (ix1 k) = _
  refine congrArg (· + x9 (ix1 k)) ?_
  rw [sum_split2]
  unfold rowDot
  refine congrArg₂ (· + ·) (Finset.sum_congr rfl fun q _ => ?_) (Finset.sum_congr rfl fun q _ => ?_)
  · have hq : 0 + q.val < 256 := by have := q.isLt; omega
    have e0 : (⟨q.val, by have := q.isLt; omega⟩ : Fin 256) = ⟨0 + q.val, hq⟩ := Fin.ext (Nat.zero_add _).symm
    rw [e0]
    exact congrArg₂ (· * ·)
      (concat2_apply_0 (val_main_v26 (F := Ideal) x0 x1 x2 x3 x4 x5 x6 x7) x0
        concatenates_S20000x128_S20000x128_S20000x256_d1 n q hq)
      (slice_rows_apply x8 g0 q k hq).symm
  · have hq : 128 + q.val < 256 := by have := q.isLt; omega
    exact congrArg₂ (· * ·)
      (concat2_apply_1 (val_main_v26 (F := Ideal) x0 x1 x2 x3 x4 x5 x6 x7) x0
        concatenates_S20000x128_S20000x128_S20000x256_d1 n q hq)
      (slice_rows_apply x8 g1 q k hq).symm

/-- The second layer over the clamped hidden layer, at node n and output feature j. -/
theorem outN_apply (n : Fin 20000) (j : Fin 128) :
    val_main_v36 (F := Ideal) x0 x1 x2 x3 x4 x5 x6 x7 x8 x9 x10 x11 (ix2 n j)
      = outLayer (fun k => val_main_v31 (F := Ideal) x0 x1 x2 x3 x4 x5 x6 x7 x8 x9 (ix2 n k)) x10
          (shapeCast ⟨2, ![1, 128]⟩ x11 gb2) j := by
  rw [val_main_v36_apply, val_main_v33_apply, val_main_v35_apply, val_main_v34_apply]
  unfold outLayer
  rw [shapeCast_vec_row_apply x11 gb2 j]
  have hl : ∀ k : Fin 256, lidx_main_v33 (ix2 n j) k = ix2 n k := fun k => funext fun a => by
    match a with
    | ⟨0, _⟩ => rfl
    | ⟨1, _⟩ => rfl
  have hr : ∀ k : Fin 256, ridx_main_v33 (ix2 n j) k = ix2 k j := fun k => funext fun a => by
    match a with
    | ⟨0, _⟩ => rfl
    | ⟨1, _⟩ => rfl
  have hb : idx_main_v34 (idx_main_v35 (ix2 n j)) = ix1 j := funext fun a => by
    match a with
    | ⟨0, _⟩ => rfl
  simp only [hl, hr, hb]
  show (∑ k : Fin 256, val_main_v32 (F := Ideal) x0 x1 x2 x3 x4 x5 x6 x7 x8 x9 (ix2 n k) * x10 (ix2 k j)) + x11 (ix1 j) = _
  refine congrArg (· + x11 (ix1 j)) (Finset.sum_congr rfl fun k _ => ?_)
  rw [val_main_v32_apply, val_main_call1_v0_apply, val_main_call1_cst_apply, zero_word]
  rfl

/-- The reference's updated node features are `nodeOut` of the scatter-summed messages, the node features,
    the two row blocks of the first weight matrix, its bias as a row, the second weight matrix and its bias as a row. -/
theorem node_eq :
    val_main_v36 (F := Ideal) x0 x1 x2 x3 x4 x5 x6 x7 x8 x9 x10 x11
      = nodeOut (val_main_v26 (F := Ideal) x0 x1 x2 x3 x4 x5 x6 x7) x0
          (extractStridedSlice ⟨2, ![128, 256]⟩ ![0, 0] x8 g0) (extractStridedSlice ⟨2, ![128, 256]⟩ ![128, 0] x8 g1)
          (shapeCast ⟨2, ![1, 256]⟩ x9 gb1) x10 (shapeCast ⟨2, ![1, 128]⟩ x11 gb2) := by
  funext i
  obtain ⟨n, j, rfl⟩ : ∃ (n : Fin 20000) (j : Fin 128), i = ix2 n j := ⟨i 0, i 1, eq_ix2 i⟩
  rw [nodeOut_apply, outN_apply x0 x1 x2 x3 x4 x5 x6 x7 x8 x9 x10 x11 gb2 n j]
  unfold nodeRow
  exact congrArg (fun h => outLayer h x10 (shapeCast ⟨2, ![1, 128]⟩ x11 gb2) j)
    (funext fun k => hiddenN x0 x1 x2 x3 x4 x5 x6 x7 x8 x9 g0 g1 gb1 n k)

end Node

end Cert.ReferenceIdeal.AtIndex

end
-- ==== Proof.Bridge.lean ====
/-
  The two programs compute the same two functions of the arguments.

  Both gather the sender and receiver rows of the node features with the same start indices and both
  scatter-sum the updated edge features at the same destination indices into a zero array: those host
  operations are the same terms on the two sides and are never opened.  Between them the reference's
  networks, read at an index, are `Spec.edgeOut` and `Spec.nodeOut` of exactly the arrays the kernel's
  two regions find: the 128-row blocks of the first weight matrices and the biases as rows.
-/
import proofs.«147681_j64424509440354_2_alg».proof.Proof.RefSide
import proofs.«147681_j64424509440354_2_alg».proof.Proof.KernelValue

set_option maxRecDepth 16384

noncomputable section

namespace Cert.Proof.Bridge

open Idealize.ShloMosaic
open Cert.KernelIdeal Cert.KernelIdeal.Gen Cert.KernelIdeal.Results Cert.Spec

/-- The reference's updated edge features are the kernel's. -/
theorem ref_edge (x0 : (⟨S20000x128, .f32⟩ : BufTy).Contents (Elt Ideal)) (x1 : (⟨S640000x128, .f32⟩ : BufTy).Contents (Elt Ideal)) (x2 x3 : (⟨S640000, .i32⟩ : BufTy).Contents (Elt Ideal)) (x4 : (⟨S384x256, .f32⟩ : BufTy).Contents (Elt Ideal)) (x5 : (⟨S256, .f32⟩ : BufTy).Contents (Elt Ideal)) (x6 : (⟨S256x128, .f32⟩ : BufTy).Contents (Elt Ideal)) (x7 : (⟨S128, .f32⟩ : BufTy).Contents (Elt Ideal)) :
    Cert.ReferenceIdeal.Read.val_main_v23 (F := Ideal) x0 x1 x2 x3 x4 x5 x6 x7 = edgeResult x0 x1 x2 x3 x4 x5 x6 x7 :=
  (Cert.ReferenceIdeal.AtIndex.edge_eq x0 x1 x2 x3 x4 x5 x6 x7 slices_S384x256_S128x256_0_0 slices_S384x256_S128x256_128_0
    slices_S384x256_S128x256_256_0 shapeCasts_S256_S1x256 shapeCasts_S128_S1x128).trans rfl

/-- The reference's scatter-summed messages are the kernel's. -/
theorem ref_agg (x0 : (⟨S20000x128, .f32⟩ : BufTy).Contents (Elt Ideal)) (x1 : (⟨S640000x128, .f32⟩ : BufTy).Contents (Elt Ideal)) (x2 x3 : (⟨S640000, .i32⟩ : BufTy).Contents (Elt Ideal)) (x4 : (⟨S384x256, .f32⟩ : BufTy).Contents (Elt Ideal)) (x5 : (⟨S256, .f32⟩ : BufTy).Contents (Elt Ideal)) (x6 : (⟨S256x128, .f32⟩ : BufTy).Contents (Elt Ideal)) (x7 : (⟨S128, .f32⟩ : BufTy).Contents (Elt Ideal)) :
    Cert.ReferenceIdeal.Read.val_main_v26 (F := Ideal) x0 x1 x2 x3 x4 x5 x6 x7
      = aggregated x3 (edgeResult x0 x1 x2 x3 x4 x5 x6 x7) := by
  have h : Cert.ReferenceIdeal.Read.val_main_v26 (F := Ideal) x0 x1 x2 x3 x4 x5 x6 x7
      = aggregated x3 (Cert.ReferenceIdeal.Read.val_main_v23 (F := Ideal) x0 x1 x2 x3 x4 x5 x6 x7) := rfl
  rw [h, ref_edge]

/-- The reference's updated node features are the kernel's. -/
theorem ref_node (x0 : (⟨S20000x128, .f32⟩ : BufTy).Contents (Elt Ideal)) (x1 : (⟨S640000x128, .f32⟩ : BufTy).Contents (Elt Ideal)) (x2 x3 : (⟨S640000, .i32⟩ : BufTy).Contents (Elt Ideal)) (x4 : (⟨S384x256, .f32⟩ : BufTy).Contents (Elt Ideal)) (x5 : (⟨S256, .f32⟩ : BufTy).Contents (Elt Ideal)) (x6 : (⟨S256x128, .f32⟩ : BufTy).Contents (Elt Ideal)) (x7 : (⟨S128, .f32⟩ : BufTy).Contents (Elt Ideal)) (x8 : (⟨S256x256, .f32⟩ : BufTy).Contents (Elt Ideal)) (x9 : (⟨S256, .f32⟩ : BufTy).Contents (Elt Ideal)) (x10 : (⟨S256x128, .f32⟩ : BufTy).Contents (Elt Ideal)) (x11 : (⟨S128, .f32⟩ : BufTy).Contents (Elt Ideal)) :
    Cert.ReferenceIdeal.Read.val_main_v36 (F := Ideal) x0 x1 x2 x3 x4 x5 x6 x7 x8 x9 x10 x11
      = nodeResult x0 x1 x2 x3 x4 x5 x6 x7 x8 x9 x10 x11 := by
  refine (Cert.ReferenceIdeal.AtIndex.node_eq x0 x1 x2 x3 x4 x5 x6 x7 x8 x9 x10 x11 slices_S256x256_S128x256_0_0
    slices_S256x256_S128x256_128_0 shapeCasts_S256_S1x256 shapeCasts_S128_S1x128).trans ?_
  rw [ref_agg]
  rfl

end Cert.Proof.Bridge

end
-- ==== Proof.lean ====
/-
  One step of message passing on a graph of 20000 nodes and 640000 edges with 128 features each: every
  edge's features are updated by a two-layer network of its own features and its sender's and receiver's
  node features, the updated edge features are summed at their destination nodes, and every node's
  features are updated by a two-layer network of that sum and its own features.

  The kernel runs each network as one pallas_call over row blocks (100 blocks of 6400 edges, 4 blocks of
  5000 nodes), with the first layer's contraction split over the 128-feature pieces of its input; the
  gathers and the scatter-sum stay on the host.  The reference concatenates the pieces and contracts once.
  At the ideal values — floats extended reals, every operation exact, a change of float format the
  identity — the two programs compute the same two arrays:
    * a matrix product into the zero accumulator and the host's dot_general are the same plain sum;
    * a sum over a concatenated axis is the sum of the sums over its pieces, a law of commutative monoids
      that holds at every extended real, so the finiteness of the inputs is never used;
    * the row blocks tile their arrays, so block by block is the whole array;
    * the gathers and the scatter-sum are the same host operations on both sides and are not opened.
  The idealization rewrote no operation, so that the idealized kernel is the kernel's idealization holds
  trivially.  Each program's run is its frame: the two kernel programs' from the frame modules, the
  reference's from its run with the results dropped.
-/
import proofs.«147681_j64424509440354_2_alg».proof.Defs
import proofs.«147681_j64424509440354_2_alg».proof.Proof.Gen.Kernel
import proofs.«147681_j64424509440354_2_alg».proof.Proof.Gen.Kernel.Frame
import proofs.«147681_j64424509440354_2_alg».proof.Proof.Gen.KernelIdeal
import proofs.«147681_j64424509440354_2_alg».proof.Proof.Gen.KernelIdeal.Frame
import proofs.«147681_j64424509440354_2_alg».proof.Proof.Gen.ReferenceIdeal
import proofs.«147681_j64424509440354_2_alg».proof.Proof.Gen.ReferenceIdeal.Run
import proofs.«147681_j64424509440354_2_alg».proof.Proof.Gen.ReferenceIdeal.Read
import proofs.«147681_j64424509440354_2_alg».proof.Proof.Gen.Pre_finite_inputs
import proofs.«147681_j64424509440354_2_alg».proof.Proof.KernelRun
import proofs.«147681_j64424509440354_2_alg».proof.Proof.KernelValue
import proofs.«147681_j64424509440354_2_alg».proof.Proof.Bridge

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with its two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- Both programs end with the updated node features at `nodeResult` and the updated edge features at
    `edgeResult` of the arguments they agree on: the kernel by its run read back through its segments,
    the reference by its run read at an index. -/
theorem algebraic : Cert.algebraic_KernelIdeal_ReferenceIdeal := by
  intro m ρ m' ρ' _ hagree
  refine ⟨fun c => Cert.KernelIdeal.Results.nodeResult (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    fun c => Cert.KernelIdeal.Results.edgeResult (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono (fun r h c =>
      ⟨(h c _ (Cert.KernelIdeal.Gen.mem_uc Cert.KernelIdeal.main_v35 (by decide))).trans (Cert.KernelIdeal.Results.v35_eq m ρ c),
       (h c _ (Cert.KernelIdeal.Gen.mem_uc Cert.KernelIdeal.main_v24 (by decide))).trans (Cert.KernelIdeal.Results.v24_eq m ρ c),
       (h c _ (Cert.KernelIdeal.Gen.mem_uc Cert.KernelIdeal.main_arg0 (by decide))).trans (Cert.KernelIdeal.Gen.W4_main_arg0 m ρ c),
       (h c _ (Cert.KernelIdeal.Gen.mem_uc Cert.KernelIdeal.main_arg1 (by decide))).trans (Cert.KernelIdeal.Gen.W4_main_arg1 m ρ c),
       (h c _ (Cert.KernelIdeal.Gen.mem_uc Cert.KernelIdeal.main_arg2 (by decide))).trans (Cert.KernelIdeal.Gen.W4_main_arg2 m ρ c),
       (h c _ (Cert.KernelIdeal.Gen.mem_uc Cert.KernelIdeal.main_arg3 (by decide))).trans (Cert.KernelIdeal.Gen.W4_main_arg3 m ρ c),
       (h c _ (Cert.KernelIdeal.Gen.mem_uc Cert.KernelIdeal.main_arg4 (by decide))).trans (Cert.KernelIdeal.Gen.W4_main_arg4 m ρ c),
       (h c _ (Cert.KernelIdeal.Gen.mem_uc Cert.KernelIdeal.main_arg5 (by decide))).trans (Cert.KernelIdeal.Gen.W4_main_arg5 m ρ c),
       (h c _ (Cert.KernelIdeal.Gen.mem_uc Cert.KernelIdeal.main_arg6 (by decide))).trans (Cert.KernelIdeal.Gen.W4_main_arg6 m ρ c),
       (h c _ (Cert.KernelIdeal.Gen.mem_uc Cert.KernelIdeal.main_arg7 (by decide))).trans (Cert.KernelIdeal.Gen.W4_main_arg7 m ρ c),
       (h c _ (Cert.KernelIdeal.Gen.mem_uc Cert.KernelIdeal.main_arg8 (by decide))).trans (Cert.KernelIdeal.Gen.W4_main_arg8 m ρ c),
       (h c _ (Cert.KernelIdeal.Gen.mem_uc Cert.KernelIdeal.main_arg9 (by decide))).trans (Cert.KernelIdeal.Gen.W4_main_arg9 m ρ c),
       (h c _ (Cert.KernelIdeal.Gen.mem_uc Cert.KernelIdeal.main_arg10 (by decide))).trans (Cert.KernelIdeal.Gen.W4_main_arg10 m ρ c),
       (h c _ (Cert.KernelIdeal.Gen.mem_uc Cert.KernelIdeal.main_arg11 (by decide))).trans (Cert.KernelIdeal.Gen.W4_main_arg11 m ρ c)⟩)
      (Cert.KernelIdeal.Named.run_all m ρ)
  · refine (θ_run Cert.ReferenceIdeal.defs _ _).mono (fun r h c => ?_) (Cert.ReferenceIdeal.Value.run (F := Ideal) m' ρ')
    obtain ⟨e0, e1, e2, e3, e4, e5, e6, e7, e8, e9, e10, e11⟩ := hagree c
    refine ⟨(h c).1.trans ?_, (h c).2.1.trans ?_, (h c).2.2⟩
    · refine (Cert.ReferenceIdeal.Read.val_main_v36_eq _ _ _ _ _ _ _ _ _ _ _ _).trans ?_
      rw [e0, e1, e2, e3, e4, e5, e6, e7, e8, e9, e10, e11]
      exact Cert.Proof.Bridge.ref_node _ _ _ _ _ _ _ _ _ _ _ _
    · refine (Cert.ReferenceIdeal.Read.val_main_v23_eq _ _ _ _ _ _ _ _).trans ?_
      rw [e0, e1, e2, e3, e4, e5, e6, e7]
      exact Cert.Proof.Bridge.ref_edge _ _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
